-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S16x64x1024 : Shape := ⟨3, ![16, 64, 1024]⟩
abbrev S32x2048x64 : Shape := ⟨3, ![32, 2048, 64]⟩
abbrev S256x1024 : Shape := ⟨2, ![256, 1024]⟩
abbrev S16x256x64 : Shape := ⟨3, ![16, 256, 64]⟩
abbrev S1x64x1024 : Shape := ⟨3, ![1, 64, 1024]⟩
abbrev S64x1024 : Shape := ⟨2, ![64, 1024]⟩
abbrev S256x64 : Shape := ⟨2, ![256, 64]⟩
abbrev S1x256x64 : Shape := ⟨3, ![1, 256, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S1024x16x64 : Shape := ⟨3, ![1024, 16, 64]⟩
abbrev S16x1024x64 : Shape := ⟨3, ![16, 1024, 64]⟩
abbrev S16x512x64 : Shape := ⟨3, ![16, 512, 64]⟩
abbrev S512x1024 : Shape := ⟨2, ![512, 1024]⟩
abbrev S1x512x64 : Shape := ⟨3, ![1, 512, 64]⟩
abbrev S512x64 : Shape := ⟨2, ![512, 64]⟩

abbrev nBuf : Space → Nat
  | .hbm => 18
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S4096x1024, .f32⟩
  | .hbm, ⟨4, _⟩ => ⟨S1024x1024, .f32⟩
  | .hbm, ⟨5, _⟩ => ⟨S16x64x1024, .f32⟩
  | .hbm, ⟨6, _⟩ => ⟨S1024x1024, .f32⟩
  | .hbm, ⟨7, _⟩ => ⟨S16x64x1024, .f32⟩
  | .hbm, ⟨8, _⟩ => ⟨S1024x1024, .f32⟩
  | .hbm, ⟨9, _⟩ => ⟨S16x64x1024, .f32⟩
  | .hbm, ⟨10, _⟩ => ⟨S32x2048x64, .bf16⟩
  | .hbm, ⟨11, _⟩ => ⟨S32x2048x64, .bf16⟩
  | .hbm, ⟨12, _⟩ => ⟨S32x2048x64, .bf16⟩
  | .hbm, ⟨13, _⟩ => ⟨S32x2048x64, .bf16⟩
  | .hbm, ⟨14, _⟩ => ⟨S1024x16x64, .f32⟩
  | .hbm, ⟨15, _⟩ => ⟨S16x1024x64, .f32⟩
  | .hbm, ⟨16, _⟩ => ⟨S4096x1024, .f32⟩
  | .hbm, ⟨17, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S16x64x1024, .f32⟩
  | .local _ .vmem, ⟨3, _⟩ => ⟨S16x64x1024, .f32⟩
  | .local _ .vmem, ⟨4, _⟩ => ⟨S16x64x1024, .f32⟩
  | .local _ .vmem, ⟨5, _⟩ => ⟨S16x256x64, .bf16⟩
  | .local _ .vmem, ⟨6, _⟩ => ⟨S16x256x64, .bf16⟩
  | .local _ .vmem, ⟨7, _⟩ => ⟨S16x256x64, .bf16⟩
  | .local _ .vmem, ⟨8, _⟩ => ⟨S16x256x64, .bf16⟩
  | .local _ .vmem, ⟨9, _⟩ => ⟨S16x256x64, .bf16⟩
  | .local _ .vmem, ⟨10, _⟩ => ⟨S16x256x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x2048x64, .bf16⟩
  | .local _ .vmem, ⟨17, _⟩ => ⟨S1x1024x64, .bf16⟩
  | .local _ .vmem, ⟨18, _⟩ => ⟨S1x1024x64, .bf16⟩
  | .local _ .vmem, ⟨19, _⟩ => ⟨S16x512x64, .bf16⟩
  | .local _ .vmem, ⟨20, _⟩ => ⟨S16x512x64, .bf16⟩
  | .local _ .vmem, ⟨21, _⟩ => ⟨S16x1024x64, .f32⟩
  | .local _ .vmem, ⟨22, _⟩ => ⟨S512x1024, .f32⟩
  | .local _ .vmem, ⟨23, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16x1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x1024_S4096x1024 : S2x2048x1024.ShapeCasts S4096x1024
  slices_S3072x1024_S1024x1024_0_0 : S3072x1024.Slices ![0, 0] S1024x1024
  shapeCasts_S1024x1024_S16x64x1024 : S1024x1024.ShapeCasts S16x64x1024
  slices_S3072x1024_S1024x1024_1024_0 : S3072x1024.Slices ![1024, 0] S1024x1024
  slices_S3072x1024_S1024x1024_2048_0 : S3072x1024.Slices ![2048, 0] S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S16x64x1024_S1x64x1024_0_0_0 : ∀ a, (![0, 0, 0] : Fin 3 → Nat) a + S1x64x1024.size a ≤ S16x64x1024.size a
  h_S1x64x1024 : 0 < S1x64x1024.numel
  shapeCasts_S1x64x1024_S64x1024 : S1x64x1024.ShapeCasts S64x1024
  inb_S16x256x64_S1x256x64_0_0_0 : ∀ a, (![0, 0, 0] : Fin 3 → Nat) a + S1x256x64.size a ≤ S16x256x64.size a
  h_S1x256x64 : 0 < S1x256x64.numel
  shapeCasts_S1x256x64_S256x64 : S1x256x64.ShapeCasts S256x64
  shapeCasts_S256x64_S1x256x64 : S256x64.ShapeCasts S1x256x64
  packedbf16_S16x256x64_S1x256x64_0_0_0 : (Rect.unit (s := S16x256x64) ![0, 0, 0] S1x256x64.size inb_S16x256x64_S1x256x64_0_0_0).PackedRows (EltTy.packing .bf16)
  inb_S16x64x1024_S1x64x1024_1_0_0 : ∀ a, (![1, 0, 0] : Fin 3 → Nat) a + S1x64x1024.size a ≤ S16x64x1024.size a
  inb_S16x256x64_S1x256x64_1_0_0 : ∀ a, (![1, 0, 0] : Fin 3 → Nat) a + S1x256x64.size a ≤ S16x256x64.size a
  packedbf16_S16x256x64_S1x256x64_1_0_0 : (Rect.unit (s := S16x256x64) ![1, 0, 0] S1x256x64.size inb_S16x256x64_S1x256x64_1_0_0).PackedRows (EltTy.packing .bf16)
  inb_S16x64x1024_S1x64x1024_2_0_0 : ∀ a, (![2, 0, 0] : Fin 3 → Nat) a + S1x64x1024.size a ≤ S16x64x1024.size a
  inb_S16x256x64_S1x256x64_2_0_0 : ∀ a, (![2, 0, 0] : Fin 3 → Nat) a + S1x256x64.size a ≤ S16x256x64.size a
  packedbf16_S16x256x64_S1x256x64_2_0_0 : (Rect.unit (s := S16x256x64) ![2, 0, 0] S1x256x64.size inb_S16x256x64_S1x256x64_2_0_0).PackedRows (EltTy.packing .bf16)
  inb_S16x64x1024_S1x64x1024_3_0_0 : ∀ a, (![3, 0, 0] : Fin 3 → Nat) a + S1x64x1024.size a ≤ S16x64x1024.size a
  inb_S16x256x64_S1x256x64_3_0_0 : ∀ a, (![3, 0, 0] : Fin 3 → Nat) a + S1x256x64.size a ≤ S16x256x64.size a
  packedbf16_S16x256x64_S1x256x64_3_0_0 : (Rect.unit (s := S16x256x64) ![3, 0, 0] S1x256x64.size inb_S16x256x64_S1x256x64_3_0_0).PackedRows (EltTy.packing .bf16)
  inb_S16x64x1024_S1x64x1024_4_0_0 : ∀ a, (![4, 0, 0] : Fin 3 → Nat) a + S1x64x1024.size a ≤ S16x64x1024.size a
  inb_S16x256x64_S1x256x64_4_0_0 : ∀ a, (![4, 0, 0] : Fin 3 → Nat) a + S1x256x64.size a ≤ S16x256x64.size a
  packedbf16_S16x256x64_S1x256x64_4_0_0 : (Rect.unit (s := S16x256x64) ![4, 0, 0] S1x256x64.size inb_S16x256x64_S1x256x64_4_0_0).PackedRows (EltTy.packing .bf16)
  inb_S16x64x1024_S1x64x1024_5_0_0 : ∀ a, (![5, 0, 0] : Fin 3 → Nat) a + S1x64x1024.size a ≤ S16x64x1024.size a
  inb_S16x256x64_S1x256x64_5_0_0 : ∀ a, (![5, 0, 0] : Fin 3 → Nat) a + S1x256x64.size a ≤ S16x256x64.size a
  packedbf16_S16x256x64_S1x256x64_5_0_0 : (Rect.unit (s := S16x256x64) ![5, 0, 0] S1x256x64.size inb_S16x256x64_S1x256x64_5_0_0).PackedRows (EltTy.packing .bf16)
  inb_S16x64x1024_S1x64x1024_6_0_0 : ∀ a, (![6, 0, 0] : Fin 3 → Nat) a + S1x64x1024.size a ≤ S16x64x1024.size a
  inb_S16x256x64_S1x256x64_6_0_0 : ∀ a, (![6, 0, 0] : Fin 3 → Nat) a + S1x256x64.size a ≤ S16x256x64.size a
  packedbf16_S16x256x64_S1x256x64_6_0_0 : (Rect.unit (s := S16x256x64) ![6, 0, 0] S1x256x64.size inb_S16x256x64_S1x256x64_6_0_0).PackedRows (EltTy.packing .bf16)
  inb_S16x64x1024_S1x64x1024_7_0_0 : ∀ a, (![7, 0, 0] : Fin 3 → Nat) a + S1x64x1024.size a ≤ S16x64x1024.size a
  inb_S16x256x64_S1x256x64_7_0_0 : ∀ a, (![7, 0, 0] : Fin 3 → Nat) a + S1x256x64.size a ≤ S16x256x64.size a
  packedbf16_S16x256x64_S1x256x64_7_0_0 : (Rect.unit (s := S16x256x64) ![7, 0, 0] S1x256x64.size inb_S16x256x64_S1x256x64_7_0_0).PackedRows (EltTy.packing .bf16)
  inb_S16x64x1024_S1x64x1024_8_0_0 : ∀ a, (![8, 0, 0] : Fin 3 → Nat) a + S1x64x1024.size a ≤ S16x64x1024.size a
  inb_S16x256x64_S1x256x64_8_0_0 : ∀ a, (![8, 0, 0] : Fin 3 → Nat) a + S1x256x64.size a ≤ S16x256x64.size a
  packedbf16_S16x256x64_S1x256x64_8_0_0 : (Rect.unit (s := S16x256x64) ![8, 0, 0] S1x256x64.size inb_S16x256x64_S1x256x64_8_0_0).PackedRows (EltTy.packing .bf16)
  inb_S16x64x1024_S1x64x1024_9_0_0 : ∀ a, (![9, 0, 0] : Fin 3 → Nat) a + S1x64x1024.size a ≤ S16x64x1024.size a
  inb_S16x256x64_S1x256x64_9_0_0 : ∀ a, (![9, 0, 0] : Fin 3 → Nat) a + S1x256x64.size a ≤ S16x256x64.size a
  packedbf16_S16x256x64_S1x256x64_9_0_0 : (Rect.unit (s := S16x256x64) ![9, 0, 0] S1x256x64.size inb_S16x256x64_S1x256x64_9_0_0).PackedRows (EltTy.packing .bf16)
  inb_S16x64x1024_S1x64x1024_10_0_0 : ∀ a, (![10, 0, 0] : Fin 3 → Nat) a + S1x64x1024.size a ≤ S16x64x1024.size a
  inb_S16x256x64_S1x256x64_10_0_0 : ∀ a, (![10, 0, 0] : Fin 3 → Nat) a + S1x256x64.size a ≤ S16x256x64.size a
  packedbf16_S16x256x64_S1x256x64_10_0_0 : (Rect.unit (s := S16x256x64) ![10, 0, 0] S1x256x64.size inb_S16x256x64_S1x256x64_10_0_0).PackedRows (EltTy.packing .bf16)
  inb_S16x64x1024_S1x64x1024_11_0_0 : ∀ a, (![11, 0, 0] : Fin 3 → Nat) a + S1x64x1024.size a ≤ S16x64x1024.size a
  inb_S16x256x64_S1x256x64_11_0_0 : ∀ a, (![11, 0, 0] : Fin 3 → Nat) a + S1x256x64.size a ≤ S16x256x64.size a
  packedbf16_S16x256x64_S1x256x64_11_0_0 : (Rect.unit (s := S16x256x64) ![11, 0, 0] S1x256x64.size inb_S16x256x64_S1x256x64_11_0_0).PackedRows (EltTy.packing .bf16)
  inb_S16x64x1024_S1x64x1024_12_0_0 : ∀ a, (![12, 0, 0] : Fin 3 → Nat) a + S1x64x1024.size a ≤ S16x64x1024.size a
  inb_S16x256x64_S1x256x64_12_0_0 : ∀ a, (![12, 0, 0] : Fin 3 → Nat) a + S1x256x64.size a ≤ S16x256x64.size a
  packedbf16_S16x256x64_S1x256x64_12_0_0 : (Rect.unit (s := S16x256x64) ![12, 0, 0] S1x256x64.size inb_S16x256x64_S1x256x64_12_0_0).PackedRows (EltTy.packing .bf16)
  inb_S16x64x1024_S1x64x1024_13_0_0 : ∀ a, (![13, 0, 0] : Fin 3 → Nat) a + S1x64x1024.size a ≤ S16x64x1024.size a
  inb_S16x256x64_S1x256x64_13_0_0 : ∀ a, (![13, 0, 0] : Fin 3 → Nat) a + S1x256x64.size a ≤ S16x256x64.size a
  packedbf16_S16x256x64_S1x256x64_13_0_0 : (Rect.unit (s := S16x256x64) ![13, 0, 0] S1x256x64.size inb_S16x256x64_S1x256x64_13_0_0).PackedRows (EltTy.packing .bf16)
  inb_S16x64x1024_S1x64x1024_14_0_0 : ∀ a, (![14, 0, 0] : Fin 3 → Nat) a + S1x64x1024.size a ≤ S16x64x1024.size a
  inb_S16x256x64_S1x256x64_14_0_0 : ∀ a, (![14, 0, 0] : Fin 3 → Nat) a + S1x256x64.size a ≤ S16x256x64.size a
  packedbf16_S16x256x64_S1x256x64_14_0_0 : (Rect.unit (s := S16x256x64) ![14, 0, 0] S1x256x64.size inb_S16x256x64_S1x256x64_14_0_0).PackedRows (EltTy.packing .bf16)
  inb_S16x64x1024_S1x64x1024_15_0_0 : ∀ a, (![15, 0, 0] : Fin 3 → Nat) a + S1x64x1024.size a ≤ S16x64x1024.size a
  inb_S16x256x64_S1x256x64_15_0_0 : ∀ a, (![15, 0, 0] : Fin 3 → Nat) a + S1x256x64.size a ≤ S16x256x64.size a
  packedbf16_S16x256x64_S1x256x64_15_0_0 : (Rect.unit (s := S16x256x64) ![15, 0, 0] S1x256x64.size inb_S16x256x64_S1x256x64_15_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S1024x1024_S1024x16x64 : S1024x1024.ShapeCasts S1024x16x64
  transposes_S1024x16x64_S16x1024x64_1_0_2 : S1024x16x64.Transposes [1, 0, 2] S16x1024x64
  inb_S16x512x64_S1x512x64_0_0_0 : ∀ a, (![0, 0, 0] : Fin 3 → Nat) a + S1x512x64.size a ≤ S16x512x64.size a
  h_S1x512x64 : 0 < S1x512x64.numel
  shapeCasts_S1x512x64_S512x64 : S1x512x64.ShapeCasts S512x64
  inb_S16x1024x64_S1x1024x64_0_0_0 : ∀ a, (![0, 0, 0] : Fin 3 → Nat) a + S1x1024x64.size a ≤ S16x1024x64.size a
  inb_S16x512x64_S1x512x64_1_0_0 : ∀ a, (![1, 0, 0] : Fin 3 → Nat) a + S1x512x64.size a ≤ S16x512x64.size a
  inb_S16x1024x64_S1x1024x64_1_0_0 : ∀ a, (![1, 0, 0] : Fin 3 → Nat) a + S1x1024x64.size a ≤ S16x1024x64.size a
  inb_S16x512x64_S1x512x64_2_0_0 : ∀ a, (![2, 0, 0] : Fin 3 → Nat) a + S1x512x64.size a ≤ S16x512x64.size a
  inb_S16x1024x64_S1x1024x64_2_0_0 : ∀ a, (![2, 0, 0] : Fin 3 → Nat) a + S1x1024x64.size a ≤ S16x1024x64.size a
  inb_S16x512x64_S1x512x64_3_0_0 : ∀ a, (![3, 0, 0] : Fin 3 → Nat) a + S1x512x64.size a ≤ S16x512x64.size a
  inb_S16x1024x64_S1x1024x64_3_0_0 : ∀ a, (![3, 0, 0] : Fin 3 → Nat) a + S1x1024x64.size a ≤ S16x1024x64.size a
  inb_S16x512x64_S1x512x64_4_0_0 : ∀ a, (![4, 0, 0] : Fin 3 → Nat) a + S1x512x64.size a ≤ S16x512x64.size a
  inb_S16x1024x64_S1x1024x64_4_0_0 : ∀ a, (![4, 0, 0] : Fin 3 → Nat) a + S1x1024x64.size a ≤ S16x1024x64.size a
  inb_S16x512x64_S1x512x64_5_0_0 : ∀ a, (![5, 0, 0] : Fin 3 → Nat) a + S1x512x64.size a ≤ S16x512x64.size a
  inb_S16x1024x64_S1x1024x64_5_0_0 : ∀ a, (![5, 0, 0] : Fin 3 → Nat) a + S1x1024x64.size a ≤ S16x1024x64.size a
  inb_S16x512x64_S1x512x64_6_0_0 : ∀ a, (![6, 0, 0] : Fin 3 → Nat) a + S1x512x64.size a ≤ S16x512x64.size a
  inb_S16x1024x64_S1x1024x64_6_0_0 : ∀ a, (![6, 0, 0] : Fin 3 → Nat) a + S1x1024x64.size a ≤ S16x1024x64.size a
  inb_S16x512x64_S1x512x64_7_0_0 : ∀ a, (![7, 0, 0] : Fin 3 → Nat) a + S1x512x64.size a ≤ S16x512x64.size a
  inb_S16x1024x64_S1x1024x64_7_0_0 : ∀ a, (![7, 0, 0] : Fin 3 → Nat) a + S1x1024x64.size a ≤ S16x1024x64.size a
  inb_S16x512x64_S1x512x64_8_0_0 : ∀ a, (![8, 0, 0] : Fin 3 → Nat) a + S1x512x64.size a ≤ S16x512x64.size a
  inb_S16x1024x64_S1x1024x64_8_0_0 : ∀ a, (![8, 0, 0] : Fin 3 → Nat) a + S1x1024x64.size a ≤ S16x1024x64.size a
  inb_S16x512x64_S1x512x64_9_0_0 : ∀ a, (![9, 0, 0] : Fin 3 → Nat) a + S1x512x64.size a ≤ S16x512x64.size a
  inb_S16x1024x64_S1x1024x64_9_0_0 : ∀ a, (![9, 0, 0] : Fin 3 → Nat) a + S1x1024x64.size a ≤ S16x1024x64.size a
  inb_S16x512x64_S1x512x64_10_0_0 : ∀ a, (![10, 0, 0] : Fin 3 → Nat) a + S1x512x64.size a ≤ S16x512x64.size a
  inb_S16x1024x64_S1x1024x64_10_0_0 : ∀ a, (![10, 0, 0] : Fin 3 → Nat) a + S1x1024x64.size a ≤ S16x1024x64.size a
  inb_S16x512x64_S1x512x64_11_0_0 : ∀ a, (![11, 0, 0] : Fin 3 → Nat) a + S1x512x64.size a ≤ S16x512x64.size a
  inb_S16x1024x64_S1x1024x64_11_0_0 : ∀ a, (![11, 0, 0] : Fin 3 → Nat) a + S1x1024x64.size a ≤ S16x1024x64.size a
  inb_S16x512x64_S1x512x64_12_0_0 : ∀ a, (![12, 0, 0] : Fin 3 → Nat) a + S1x512x64.size a ≤ S16x512x64.size a
  inb_S16x1024x64_S1x1024x64_12_0_0 : ∀ a, (![12, 0, 0] : Fin 3 → Nat) a + S1x1024x64.size a ≤ S16x1024x64.size a
  inb_S16x512x64_S1x512x64_13_0_0 : ∀ a, (![13, 0, 0] : Fin 3 → Nat) a + S1x512x64.size a ≤ S16x512x64.size a
  inb_S16x1024x64_S1x1024x64_13_0_0 : ∀ a, (![13, 0, 0] : Fin 3 → Nat) a + S1x1024x64.size a ≤ S16x1024x64.size a
  inb_S16x512x64_S1x512x64_14_0_0 : ∀ a, (![14, 0, 0] : Fin 3 → Nat) a + S1x512x64.size a ≤ S16x512x64.size a
  inb_S16x1024x64_S1x1024x64_14_0_0 : ∀ a, (![14, 0, 0] : Fin 3 → Nat) a + S1x1024x64.size a ≤ S16x1024x64.size a
  inb_S16x512x64_S1x512x64_15_0_0 : ∀ a, (![15, 0, 0] : Fin 3 → Nat) a + S1x512x64.size a ≤ S16x512x64.size a
  inb_S16x1024x64_S1x1024x64_15_0_0 : ∀ a, (![15, 0, 0] : Fin 3 → Nat) a + S1x1024x64.size a ≤ S16x1024x64.size a
  inb_S512x1024_S512x1024_0_0 : ∀ a, (![0, 0] : Fin 2 → Nat) a + S512x1024.size a ≤ S512x1024.size a
  h_S512x1024 : 0 < S512x1024.numel
  shapeCasts_S4096x1024_S2x2048x1024 : S4096x1024.ShapeCasts S2x2048x1024
  dot_S256x1024_S64x1024_S256x64_1_1_0_0_n_n_wf : DotDims.WF S256x1024 S64x1024 S256x64 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64x1024.size a ≤ S16x64x1024.size a
  hwx0_1 : ∀ i : grid0.Coords, EltTy.bits .f32 = 32 ∨ (Rect.block (s := S16x64x1024) S16x64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64x1024.size a ≤ S16x64x1024.size a
  hwx0_2 : ∀ i : grid0.Coords, EltTy.bits .f32 = 32 ∨ (Rect.block (s := S16x64x1024) S16x64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64x1024.size a ≤ S16x64x1024.size a
  hwx0_3 : ∀ i : grid0.Coords, EltTy.bits .f32 = 32 ∨ (Rect.block (s := S16x64x1024) S16x64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x64.size a ≤ S32x2048x64.size a
  hwx0_4 : ∀ i : grid0.Coords, EltTy.bits .bf16 = 32 ∨ (Rect.block (s := S32x2048x64) S16x256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x64.size a ≤ S32x2048x64.size a
  hwx0_5 : ∀ i : grid0.Coords, EltTy.bits .bf16 = 32 ∨ (Rect.block (s := S32x2048x64) S16x256x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256x64.size a ≤ S32x2048x64.size a
  hwx0_6 : ∀ i : grid0.Coords, EltTy.bits .bf16 = 32 ∨ (Rect.block (s := S32x2048x64) S16x256x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x512x64.size a ≤ S32x2048x64.size a
  hwx2_0 : ∀ i : grid2.Coords, EltTy.bits .bf16 = 32 ∨ (Rect.block (s := S32x2048x64) S16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1024x64.size a ≤ S16x1024x64.size a
  hwx2_1 : ∀ i : grid2.Coords, EltTy.bits .f32 = 32 ∨ (Rect.block (s := S16x1024x64) S16x1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S256x1024_S64x1024_S256x64_1_1_0_0_n_n : DotDims S256x1024 S64x1024 S256x64 where
  lhsContracting := [1]
  rhsContracting := [1]
  lhsNonContracting := [0]
  rhsNonContracting := [0]
  lhsBatch := []
  rhsBatch := []
  wf := dot_S256x1024_S64x1024_S256x64_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S16x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S16x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S16x256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S16x1024x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x3x16x64, .f32⟩
  | .hbm, ⟨5, _⟩ => ⟨S2x2048x1x16x64, .f32⟩
  | .hbm, ⟨6, _⟩ => ⟨S2x2048x16x64, .f32⟩
  | .hbm, ⟨7, _⟩ => ⟨S2x16x2048x64, .f32⟩
  | .hbm, ⟨8, _⟩ => ⟨S2x2048x1x16x64, .f32⟩
  | .hbm, ⟨9, _⟩ => ⟨S2x2048x16x64, .f32⟩
  | .hbm, ⟨10, _⟩ => ⟨S2x16x2048x64, .f32⟩
  | .hbm, ⟨11, _⟩ => ⟨S2x2048x1x16x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.RunValue.lean ====
/-
  The idealized kernel's run with its RESULT named: every weakly fair execution of @main terminates without a
  fault, and in the final state the result array holds `Gen.W6 m ρ c` at its buffer — the contents the fold through
  @main's six segments (three stretches of host operations, three kernel regions) leaves there — while the three
  argument arrays are as launched. It is the same launch over the same segments as the frame; only the final read
  keeps one more buffer of the last boundary's contents.
-/
import proofs.«145650_j50130858279276_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array read in the final state. -/
theorem run_value : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v12 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunValue

end
-- ==== Proof.Spec.lean ====
/-
  The mathematics both programs compute, as plain functions of coordinates over the extended reals.

  Inputs: activations X[b, s, k] (2 × 2048 × 1024), the fused projection weight W[r, k] (3072 × 1024, rows
  0–1023 the queries, 1024–2047 the keys, 2048–3071 the values, each block laid out head-major: row
  j·1024 + h·64 + d is coordinate d of head h), and the output weight Wo[o, j] (1024 × 1024).

  * projections        q, k, v [b, h, s, d] = Σ_k X[b, s, k] · W[j·1024 + h·64 + d, k]
  * scores             S[b, h, s, t] = (Σ_d q[b, h, s, d] · k[b, h, t, d]) · 2⁻³
  * row maximum        M[b, h, s] = max_t S[b, h, s, t]   (a fold of max from −∞)
  * unnormalised       P[b, h, s, t] = exp (S[b, h, s, t] − M[b, h, s])
  * row sum            L[b, h, s] = Σ_t P[b, h, s, t]
  * attention          one side divides the value product by L: (Σ_t P · v) / L;
                       the other divides each probability first: Σ_t (P / L) · v
  * output             out[b, s, o] = Σ over heads h and coordinates d of attention[b, h, s, d] · Wo[o, h·64 + d],
                       written either as a double sum or as one sum over j = h·64 + d.
-/
import Idealize.ShloMosaic.PureOps.Ideal
import Idealize.ShloMosaic.PureOps.Ideal.Laws
import Idealize.ShloMosaic.Lib.ValueIdx

noncomputable section

namespace Cert.Spec

open Idealize.ShloMosaic

/-- Row `s` of batch `b` among the 4096 flattened rows. -/
def row (b : Fin 2) (s : Fin 2048) : Fin 4096 := ⟨b.val * 2048 + s.val, by omega⟩
/-- Head `h` of batch `b` among the 32 batch-head pairs. -/
def head (b : Fin 2) (h : Fin 16) : Fin 32 := ⟨b.val * 16 + h.val, by omega⟩
/-- Coordinate `d` of head `h` among the 1024 merged feature columns. -/
def col (h : Fin 16) (d : Fin 64) : Fin 1024 := ⟨h.val * 64 + d.val, by omega⟩
/-- The row of the fused projection weight that gives coordinate `d` of head `h` of projection `j`
    (0 queries, 1 keys, 2 values). -/
def wrow (j : Fin 3) (h : Fin 16) (d : Fin 64) : Fin 3072 := ⟨j.val * 1024 + h.val * 64 + d.val, by omega⟩

theorem row_val (b : Fin 2) (s : Fin 2048) : (row b s).val = b.val * 2048 + s.val := rfl
theorem head_val (b : Fin 2) (h : Fin 16) : (head b h).val = b.val * 16 + h.val := rfl
theorem col_val (h : Fin 16) (d : Fin 64) : (col h d).val = h.val * 64 + d.val := rfl
theorem wrow_val (j : Fin 3) (h : Fin 16) (d : Fin 64) : (wrow j h d).val = j.val * 1024 + h.val * 64 + d.val := rfl

/-- Every batch-head pair is `head b h` for one `b` and `h`. -/
theorem exists_head (g : Fin 32) : ∃ (b : Fin 2) (h : Fin 16), g = head b h :=
  ⟨⟨g.val / 16, by omega⟩, ⟨g.val % 16, by omega⟩, Fin.ext (by simp only [head_val]; omega)⟩
/-- Every flattened row is `row b s` for one `b` and `s`. -/
theorem exists_row (r : Fin 4096) : ∃ (b : Fin 2) (s : Fin 2048), r = row b s :=
  ⟨⟨r.val / 2048, by omega⟩, ⟨r.val % 2048, by omega⟩, Fin.ext (by simp only [row_val]; omega)⟩
/-- Every merged feature column is `col h d` for one `h` and `d`. -/
theorem exists_col (j : Fin 1024) : ∃ (h : Fin 16) (d : Fin 64), j = col h d :=
  ⟨⟨j.val / 64, by omega⟩, ⟨j.val % 64, by omega⟩, Fin.ext (by simp only [col_val]; omega)⟩

/-- Activations by batch, position and feature. -/
abbrev Act := Fin 2 → Fin 2048 → Fin 1024 → EReal
/-- A per-head array by batch, head, position and head coordinate. -/
abbrev Hd := Fin 2 → Fin 16 → Fin 2048 → Fin 64 → EReal

/-- The softmax scale 2⁻³ (= 1/√64) as the programs spell it, and −∞ likewise. -/
abbrev scale : EReal := Ideal.ofBits .f32 0x3E000000#32
abbrev negInf : EReal := Ideal.ofBits .f32 0xFF800000#32

/-- Projection `j` of the activations. -/
def qkv (X : Act) (W : Fin 3072 → Fin 1024 → EReal) (j : Fin 3) : Hd :=
  fun b h s d => ∑ k : Fin 1024, X b s k * W (wrow j h d) k

/-- Scaled score of query position `s` against key position `t`. -/
def score (q k : Hd) (b : Fin 2) (h : Fin 16) (s t : Fin 2048) : EReal :=
  (∑ d : Fin 64, q b h s d * k b h t d) * scale

/-- The row maximum: the fold of `max` from −∞ over the key positions. -/
def rowMax (q k : Hd) (b : Fin 2) (h : Fin 16) (s : Fin 2048) : EReal :=
  (Finset.univ : Finset (Fin 2048)).fold max negInf (fun t => score q k b h s t)

/-- The unnormalised probability. -/
def prob (q k : Hd) (b : Fin 2) (h : Fin 16) (s t : Fin 2048) : EReal :=
  Ideal.exp (score q k b h s t - rowMax q k b h s)

/-- The softmax denominator. -/
def rowSum (q k : Hd) (b : Fin 2) (h : Fin 16) (s : Fin 2048) : EReal :=
  ∑ t : Fin 2048, prob q k b h s t

/-- Attention, the value product divided by the row sum afterwards. -/
def attn (q k v : Hd) : Hd :=
  fun b h s d => Ideal.div (∑ t : Fin 2048, prob q k b h s t * v b h t d) (rowSum q k b h s)

/-- Attention, each probability divided by the row sum before the value product. -/
def attnR (q k v : Hd) : Hd :=
  fun b h s d => ∑ t : Fin 2048, Ideal.div (prob q k b h s t) (rowSum q k b h s) * v b h t d

/-- The output, summed head by head and coordinate by coordinate, with the division after the value product. -/
def kerOut (X : Act) (W : Fin 3072 → Fin 1024 → EReal) (Wo : Fin 1024 → Fin 1024 → EReal)
    (b : Fin 2) (s : Fin 2048) (o : Fin 1024) : EReal :=
  ∑ h : Fin 16, ∑ d : Fin 64, attn (qkv X W 0) (qkv X W 1) (qkv X W 2) b h s d * Wo o (col h d)

/-- The output, summed over the merged feature column, with each probability divided first. -/
def refOut (X : Act) (W : Fin 3072 → Fin 1024 → EReal) (Wo : Fin 1024 → Fin 1024 → EReal)
    (b : Fin 2) (s : Fin 2048) (o : Fin 1024) : EReal :=
  ∑ j : Fin 1024, attnR (qkv X W 0) (qkv X W 1) (qkv X W 2) b ⟨j.val / 64, by omega⟩ s ⟨j.val % 64, by omega⟩ * Wo o j

end Cert.Spec

end
-- ==== Proof.Glue.lean ====
/-
  The host operations around the three regions, read at an index, and the contents the regions hand to one another.

  * before the first region: the activations flattened to 4096 rows (row b·2048 + s is position s of batch b), and the
    fused projection weight cut into its query, key and value thirds, each re-laid head-major (entry (h, d, k) of third
    j is row j·1024 + h·64 + d of the weight);
  * the first region's three outputs are the second region's inputs, the second region's output the third's;
  * before the third region: the output weight re-laid by head (entry (h, o, d) is Wo[o, h·64 + d]);
  * after it: the 4096 rows un-flattened.
-/
import proofs.«145650_j50130858279276_2_alg».proof.Proof.Gen.KernelIdeal.Frame
import proofs.«145650_j50130858279276_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Glue

open Idealize.ShloMosaic Idealize.ShloMosaic.TcCoe Idealize.SL.Sem Idealize.ShloMosaic.ValueIdx Idealize.ShloMosaic.StableHlo
open Cert.KernelIdeal Cert.KernelIdeal.Gen Cert.Spec

variable (m : (ℓ : Loc nD τ sig) → Buf (Elt Ideal) ℓ) (ρ : Dev nD → PrngReg)

/-! ## The layout changes, read at an index of a variable array -/

/-- Flattening [2, 2048, 1024] to [4096, 1024]: row b·2048 + s is position s of batch b. -/
theorem flatten_apply (x : S2x2048x1024.Idx → EReal) (b : Fin 2) (s : Fin 2048) (k : Fin 1024) :
    shapeCast S4096x1024 x shapeCasts_S2x2048x1024_S4096x1024 (ix2 (row b s) k) = x (ix3 b s k) := by
  refine shapeCast_apply x _ _ _ ?_
  rw [Shape.rowMajor_val_three, Shape.rowMajor_val_two]
  show (b.val * 2048 + s.val) * 1024 + k.val = (row b s).val * 1024 + k.val
  rw [row_val]

/-- Un-flattening [4096, 1024] to [2, 2048, 1024]. -/
theorem unflatten_apply (x : S4096x1024.Idx → EReal) (b : Fin 2) (s : Fin 2048) (o : Fin 1024) :
    shapeCast S2x2048x1024 x shapeCasts_S4096x1024_S2x2048x1024 (ix3 b s o) = x (ix2 (row b s) o) := by
  refine shapeCast_apply x _ _ _ ?_
  rw [Shape.rowMajor_val_two, Shape.rowMajor_val_three]
  show (row b s).val * 1024 + o.val = (b.val * 2048 + s.val) * 1024 + o.val
  rw [row_val]

/-- The output weight re-laid by head: entry (h, o, d) of the transposed [1024, 16, 64] view is entry (o, h·64 + d). -/
theorem relay_apply (x : S1024x1024.Idx → EReal) (h : Fin 16) (o : Fin 1024) (d : Fin 64) :
    transpose S16x1024x64 [1, 0, 2] (shapeCast S1024x16x64 x shapeCasts_S1024x1024_S1024x16x64)
        transposes_S1024x16x64_S16x1024x64_1_0_2 (ix3 h o d) = x (ix2 o (col h d)) := by
  refine (transpose_apply [1, 0, 2] _ transposes_S1024x16x64_S16x1024x64_1_0_2 (ix3 h o d) (ix3 o h d) (fun b => match b with
    | ⟨0, _⟩ => rfl
    | ⟨1, _⟩ => rfl
    | ⟨2, _⟩ => rfl)).trans ?_
  refine shapeCast_apply x _ _ _ ?_
  rw [Shape.rowMajor_val_two, Shape.rowMajor_val_three]
  show o.val * 1024 + (col h d).val = (o.val * 16 + h.val) * 64 + d.val
  rw [col_val]; have := h.isLt; have := d.isLt; omega

/-! ## Before the first region -/

theorem v0_eq (c : Dev nD) : (V1 m ρ c main_v0 : S4096x1024.Idx → EReal)
    = shapeCast S4096x1024 (m ((c : Thread nD τ).loc main_arg0)) shapeCasts_S2x2048x1024_S4096x1024 := by
  show StableHlo.after hostOps0 (W0 m ρ c) (Proc.devRef .tc main_v0) = _
  after_results
  rfl

/-- Row b·2048 + s of the flattened activations is position s of batch b. -/
theorem v0_apply (c : Dev nD) (b : Fin 2) (s : Fin 2048) (k : Fin 1024) :
    V1 m ρ c main_v0 (ix2 (row b s) k) = m ((c : Thread nD τ).loc main_arg0) (ix3 b s k) := by
  rw [v0_eq]
  exact flatten_apply _ b s k

theorem v2_eq (c : Dev nD) : (V1 m ρ c main_v2 : S16x64x1024.Idx → EReal)
    = shapeCast S16x64x1024 (extractStridedSlice S1024x1024 ![0, 0] (m ((c : Thread nD τ).loc main_arg1)) slices_S3072x1024_S1024x1024_0_0)
        shapeCasts_S1024x1024_S16x64x1024 := by
  show StableHlo.after hostOps0 (W0 m ρ c) (Proc.devRef .tc main_v2) = _
  after_results
  rfl
theorem v4_eq (c : Dev nD) : (V1 m ρ c main_v4 : S16x64x1024.Idx → EReal)
    = shapeCast S16x64x1024 (extractStridedSlice S1024x1024 ![1024, 0] (m ((c : Thread nD τ).loc main_arg1)) slices_S3072x1024_S1024x1024_1024_0)
        shapeCasts_S1024x1024_S16x64x1024 := by
  show StableHlo.after hostOps0 (W0 m ρ c) (Proc.devRef .tc main_v4) = _
  after_results
  rfl
theorem v6_eq (c : Dev nD) : (V1 m ρ c main_v6 : S16x64x1024.Idx → EReal)
    = shapeCast S16x64x1024 (extractStridedSlice S1024x1024 ![2048, 0] (m ((c : Thread nD τ).loc main_arg1)) slices_S3072x1024_S1024x1024_2048_0)
        shapeCasts_S1024x1024_S16x64x1024 := by
  show StableHlo.after hostOps0 (W0 m ρ c) (Proc.devRef .tc main_v6) = _
  after_results
  rfl

/-- One third of the weight, cut at row offset `off` and re-laid head-major, read at (h, d, k). -/
theorem slab_apply (x : S3072x1024.Idx → EReal) (off : ℕ) (j : Fin 3) (hoff : off = j.val * 1024)
    (hs : S3072x1024.Slices ![off, 0] S1024x1024) (h : Fin 16) (d : Fin 64) (k : Fin 1024) :
    shapeCast S16x64x1024 (extractStridedSlice S1024x1024 ![off, 0] x hs) shapeCasts_S1024x1024_S16x64x1024 (ix3 h d k)
      = x (ix2 (wrow j h d) k) := by
  have hh : h.val < 16 := h.isLt
  have hd : d.val < 64 := d.isLt
  refine (shapeCast_apply _ _ (ix3 h d k) (ix2 (⟨h.val * 64 + d.val, by omega⟩ : Fin 1024) k) ?_).trans ?_
  · rw [Shape.rowMajor_val_two, Shape.rowMajor_val_three]
    show (h.val * 64 + d.val) * 1024 + k.val = (h.val * 64 + d.val) * 1024 + k.val
    rfl
  · refine extractStridedSlice_apply _ _ _ _ _ fun a => ?_
    match a with
    | ⟨0, _⟩ => show (wrow j h d).val = off + (h.val * 64 + d.val); rw [wrow_val, hoff]; omega
    | ⟨1, _⟩ => show k.val = 0 + k.val; omega

theorem v2_apply (c : Dev nD) (h : Fin 16) (d : Fin 64) (k : Fin 1024) :
    V1 m ρ c main_v2 (ix3 h d k) = m ((c : Thread nD τ).loc main_arg1) (ix2 (wrow 0 h d) k) := by
  rw [v2_eq]; exact slab_apply _ 0 0 rfl _ h d k
theorem v4_apply (c : Dev nD) (h : Fin 16) (d : Fin 64) (k : Fin 1024) :
    V1 m ρ c main_v4 (ix3 h d k) = m ((c : Thread nD τ).loc main_arg1) (ix2 (wrow 1 h d) k) := by
  rw [v4_eq]; exact slab_apply _ 1024 1 rfl _ h d k
theorem v6_apply (c : Dev nD) (h : Fin 16) (d : Fin 64) (k : Fin 1024) :
    V1 m ρ c main_v6 (ix3 h d k) = m ((c : Thread nD τ).loc main_arg1) (ix2 (wrow 2 h d) k) := by
  rw [v6_eq]; exact slab_apply _ 2048 2 rfl _ h d k

/-! ## Between the regions -/

/-- The second region finds the first region's three outputs. -/
theorem q_arr (c : Dev nD) : V2 m ρ c main_v7_0 = (dat0 (V1 m ρ) c).arrAt 4 cfg0.N := W2_arr m ρ c 4
theorem k_arr (c : Dev nD) : V2 m ρ c main_v7_1 = (dat0 (V1 m ρ) c).arrAt 5 cfg0.N := W2_arr m ρ c 5
theorem v_arr (c : Dev nD) : V2 m ρ c main_v7_2 = (dat0 (V1 m ρ) c).arrAt 6 cfg0.N := W2_arr m ρ c 6

/-- No host operation between the second and third regions writes the attention array. -/
theorem a_arr (c : Dev nD) : V4 m ρ c main_v8 = (dat1 (V2 m ρ) c).arrAt 3 cfg1.N :=
  calc V4 m ρ c main_v8
    _ = W3 m ρ c (Proc.devRef .tc main_v8) := StableHlo.after_of_forall_not_mem (b := Proc.devRef .tc main_v8) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = (dat1 (V2 m ρ) c).arrAt 3 cfg1.N := W3_arr m ρ c 3

/-- The output weight reaches the third region as launched: no operation and no region before it writes it. -/
theorem arg2_kept (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

theorem v10_eq (c : Dev nD) : (V4 m ρ c main_v10 : S16x1024x64.Idx → EReal)
    = transpose S16x1024x64 [1, 0, 2] (shapeCast S1024x16x64 (W3 m ρ c (Proc.devRef .tc main_arg2)) shapeCasts_S1024x1024_S1024x16x64)
        transposes_S1024x16x64_S16x1024x64_1_0_2 := by
  show StableHlo.after hostOps2 (W3 m ρ c) (Proc.devRef .tc main_v10) = _
  after_results
  rfl

/-- Entry (h, o, d) of the re-laid output weight is Wo[o, h·64 + d]. -/
theorem v10_apply (c : Dev nD) (h : Fin 16) (o : Fin 1024) (d : Fin 64) :
    V4 m ρ c main_v10 (ix3 h o d) = m ((c : Thread nD τ).loc main_arg2) (ix2 o (col h d)) := by
  rw [v10_eq, arg2_kept]
  exact relay_apply _ h o d

/-! ## After the third region -/

/-- The third region's output array in the fold. -/
theorem o_arr (c : Dev nD) : W5 m ρ c (Proc.devRef .tc main_v11) = (dat2 (V4 m ρ) c).arrAt 2 cfg2.N := W5_arr m ρ c 2

theorem v12_eq (c : Dev nD) : (W6 m ρ c (Proc.devRef .tc main_v12) : S2x2048x1024.Idx → EReal)
    = shapeCast S2x2048x1024 (W5 m ρ c (Proc.devRef .tc main_v11)) shapeCasts_S4096x1024_S2x2048x1024 := by
  show StableHlo.after hostOps3 (W5 m ρ c) (Proc.devRef .tc main_v12) = _
  after_results
  rfl

/-- Position s of batch b of the result is row b·2048 + s of the third region's output. -/
theorem v12_apply (c : Dev nD) (b : Fin 2) (s : Fin 2048) (o : Fin 1024) :
    W6 m ρ c (Proc.devRef .tc main_v12) (ix3 b s o) = (dat2 (V4 m ρ) c).arrAt 2 cfg2.N (ix2 (row b s) o) := by
  rw [v12_eq, o_arr]
  exact unflatten_apply _ b s o

end Cert.KernelIdeal.Glue

end
-- ==== Proof.Region0Pay.lean ====
/-
  The fused projection at one grid point. One head's stored slab is a 256×1024 by (64×1024)ᵀ product accumulated from zero,
  read entrywise as a sum over the 1024 features; the sixteen slabs stored into an output block are one function of the
  block of rows and of the weight.
-/
import proofs.«145650_j50130858279276_2_alg».proof.Proof.Gen.KernelIdeal.Frame
import proofs.«145650_j50130858279276_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0

open Idealize.ShloMosaic Idealize.ShloMosaic.TcCoe Idealize.SL.Sem Idealize.ShloMosaic.Pipeline
open Idealize.ShloMosaic.ValueIdx Cert.KernelIdeal Cert.KernelIdeal.Gen

/-- At output entry j of the contraction the left operand's row is j's row, -/
theorem lhs_row (j : S256x64.Idx) (q : dot_S256x1024_S64x1024_S256x64_1_1_0_0_n_n.contr.Idx) :
    (dot_S256x1024_S64x1024_S256x64_1_1_0_0_n_n.lhsIdx j q 0).val = (j 0).val := by
  unfold DotDims.lhsIdx
  rw [dif_neg (show ¬(0 : Fin S256x1024.rank) ∈ dot_S256x1024_S64x1024_S256x64_1_1_0_0_n_n.lhsBatch by decide),
    dif_pos (show (0 : Fin S256x1024.rank) ∈ dot_S256x1024_S64x1024_S256x64_1_1_0_0_n_n.lhsNonContracting by decide)]
  rfl
/-- and its column the contraction coordinate; -/
theorem lhs_col (j : S256x64.Idx) (q : dot_S256x1024_S64x1024_S256x64_1_1_0_0_n_n.contr.Idx) :
    (dot_S256x1024_S64x1024_S256x64_1_1_0_0_n_n.lhsIdx j q 1).val = (q ⟨0, by decide⟩).val :=
  dot_S256x1024_S64x1024_S256x64_1_1_0_0_n_n.lhsIdx_val_of_single rfl j q
/-- the right operand's row is j's column, -/
theorem rhs_row (j : S256x64.Idx) (q : dot_S256x1024_S64x1024_S256x64_1_1_0_0_n_n.contr.Idx) :
    (dot_S256x1024_S64x1024_S256x64_1_1_0_0_n_n.rhsIdx j q 0).val = (j 1).val := by
  unfold DotDims.rhsIdx
  rw [dif_neg (show ¬(0 : Fin S64x1024.rank) ∈ dot_S256x1024_S64x1024_S256x64_1_1_0_0_n_n.rhsBatch by decide),
    dif_pos (show (0 : Fin S64x1024.rank) ∈ dot_S256x1024_S64x1024_S256x64_1_1_0_0_n_n.rhsNonContracting by decide)]
  rfl
/-- and its column the contraction coordinate. -/
theorem rhs_col (j : S256x64.Idx) (q : dot_S256x1024_S64x1024_S256x64_1_1_0_0_n_n.contr.Idx) :
    (dot_S256x1024_S64x1024_S256x64_1_1_0_0_n_n.rhsIdx j q 1).val = (q ⟨0, by decide⟩).val :=
  dot_S256x1024_S64x1024_S256x64_1_1_0_0_n_n.rhsIdx_val_of_single rfl j q

/-- The product of a 256×1024 matrix with the transpose of a 64×1024 one, accumulated from zero, at entry (r, d):
    the sum over the shared axis of the products of the two rows' entries. -/
theorem matmul_entry (a : FVec Ideal S256x1024 .bf16) (b : FVec Ideal S64x1024 .bf16) (r : Fin 256) (d : Fin 64) :
    matmul dot_S256x1024_S64x1024_S256x64_1_1_0_0_n_n none a b (constant (F := Ideal) S256x64 .f32 0x00000000#32) (ix2 r d)
      = ∑ k : Fin 1024, a (ix2 r k) * b (ix2 d k) := by
  simp only [matmul]
  rw [Ideal.matmul_constant_zero_apply,
    ← Equiv.sum_comp (contrEquiv1 dot_S256x1024_S64x1024_S256x64_1_1_0_0_n_n 1024 rfl rfl).symm]
  refine Finset.sum_congr rfl fun k _ => ?_
  have hk := contrEquiv1_symm_val dot_S256x1024_S64x1024_S256x64_1_1_0_0_n_n 1024 rfl rfl k
  have el : dot_S256x1024_S64x1024_S256x64_1_1_0_0_n_n.lhsIdx (ix2 r d)
      ((contrEquiv1 dot_S256x1024_S64x1024_S256x64_1_1_0_0_n_n 1024 rfl rfl).symm k) = ix2 r k :=
    funext fun a => Fin.ext (by
      match a with
      | ⟨0, _⟩ => exact lhs_row _ _
      | ⟨1, _⟩ => exact (lhs_col _ _).trans hk)
  have er : dot_S256x1024_S64x1024_S256x64_1_1_0_0_n_n.rhsIdx (ix2 r d)
      ((contrEquiv1 dot_S256x1024_S64x1024_S256x64_1_1_0_0_n_n 1024 rfl rfl).symm k) = ix2 d k :=
    funext fun a => Fin.ext (by
      match a with
      | ⟨0, _⟩ => exact rhs_row _ _
      | ⟨1, _⟩ => exact (rhs_col _ _).trans hk)
  rw [el, er]

/-- One head's projection of a block of 256 rows: entry (r, d) of the stored slab is the inner product of row r of the
    activations with row d of that head's weight slab (the format changes are the identity on the extended reals). -/
theorem slab_entry (x : Vec Ideal S256x1024 .f32) (w : Vec Ideal S1x64x1024 .f32) (u : Fin 1) (r : Fin 256) (d : Fin 64) :
    k0_pay3 (F := Ideal) x w (ix3 u r d) = ∑ k : Fin 1024, x (ix2 r k) * w (ix3 (0 : Fin 1) d k) := by
  unfold k0_pay3 k0_pay2
  refine (shapeCast_ab_1ab_apply _ _ u r d).trans ?_
  show matmul dot_S256x1024_S64x1024_S256x64_1_1_0_0_n_n none _ _ (constant (F := Ideal) S256x64 .f32 0x00000000#32) (ix2 r d) = _
  refine (matmul_entry _ _ r d).trans ?_
  refine Finset.sum_congr rfl fun k _ => ?_
  show shapeCast S256x1024 x _ (ix2 r k) * shapeCast S64x1024 w _ (ix2 d k) = _
  rw [shapeCast_self, shapeCast_1ab_ab_apply]

/-! ## The block a grid point leaves: sixteen slabs, one function -/

theorem zero2 : (![0, 0] : Fin 2 → Nat) = fun _ => 0 := funext fun a => by fin_cases a <;> rfl

/-- What a grid point's 16×256×64 output block holds, as one function of its 256×1024 block of activation rows
    and a 16×64×1024 weight: entry (h, r, d) is the inner product of row r with row d of the weight's slab h. -/
def headBlock (x0 : Vec Ideal S256x1024 .f32) (x1 : Vec Ideal S16x64x1024 .f32) : Vec Ideal S16x256x64 .bf16 :=
  fun y => ∑ k : Fin 1024, x0 (ix2 (⟨(y 1).val, (y 1).isLt⟩ : Fin 256) k)
    * x1 (ix3 (⟨(y 0).val, (y 0).isLt⟩ : Fin 16) (⟨(y 2).val, (y 2).isLt⟩ : Fin 64) k)

/-- The slab stored at head n, computed from the whole block of rows and slab n of the weight, is that function
    on the slab's rectangle. -/
theorem slab_eq (x0 : Vec Ideal S256x1024 .f32) (x1 : Vec Ideal S16x64x1024 .f32) (n : Nat)
    (inb0 : ∀ a, (![0, 0] : Fin 2 → Nat) a + S256x1024.size a ≤ S256x1024.size a)
    (inbw : ∀ a, (![n, 0, 0] : Fin 3 → Nat) a + S1x64x1024.size a ≤ S16x64x1024.size a)
    (inbo : ∀ a, (![n, 0, 0] : Fin 3 → Nat) a + S1x256x64.size a ≤ S16x256x64.size a)
    (y : S1x256x64.Idx) :
    k0_pay3 (F := Ideal) (View.ld x0 (Rect.unit (s := S256x1024) ![0, 0] S256x1024.size inb0))
        (View.ld x1 (Rect.unit (s := S16x64x1024) ![n, 0, 0] S1x64x1024.size inbw)) y
      = headBlock x0 x1 ((Rect.unit (s := S16x256x64) ![n, 0, 0] S1x256x64.size inbo).emb y) := by
  obtain ⟨u, r, d, rfl⟩ : ∃ (u : Fin 1) (r : Fin 256) (d : Fin 64), y = ix3 u r d := ⟨y 0, y 1, y 2, eq_ix3 y⟩
  rw [slab_entry, View.ld_unit_zero (S := S256x1024) zero2]
  unfold headBlock
  refine Finset.sum_congr rfl fun k _ => ?_
  have hu : u.val = 0 := by omega
  refine congrArg₂ (· * ·) (congrArg x0 ?_) (congrArg x1 ?_)
  · funext a; apply Fin.ext
    match a with
    | ⟨0, _⟩ => show r.val = 0 + 1 * r.val; omega
    | ⟨1, _⟩ => rfl
  · funext a; apply Fin.ext
    match a with
    | ⟨0, _⟩ => show n + 1 * 0 = n + 1 * u.val; omega
    | ⟨1, _⟩ => show 0 + 1 * d.val = 0 + 1 * d.val; rfl
    | ⟨2, _⟩ => show 0 + 1 * k.val = k.val; omega

/-- The sixteen stores into output block 0 tile it, and each is the block function on its slab: the block is that function. -/
theorem out0_4_eq (x0 : Vec Ideal S256x1024 .f32) (x1 x2 x3 : Vec Ideal S16x64x1024 .f32) :
    out0_4 (F := Ideal) x0 x1 x2 x3 = headBlock x0 x1 := by
  funext y
  unfold out0_4
  refine View.canon_apply_of_pieces (headBlock x0 x1) _ ?_ y (cover0_4 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals intro z
  · exact slab_eq x0 x1 15 inb_S256x1024_S256x1024_0_0 inb_S16x64x1024_S1x64x1024_15_0_0 inb_S16x256x64_S1x256x64_15_0_0 z
  · exact slab_eq x0 x1 14 inb_S256x1024_S256x1024_0_0 inb_S16x64x1024_S1x64x1024_14_0_0 inb_S16x256x64_S1x256x64_14_0_0 z
  · exact slab_eq x0 x1 13 inb_S256x1024_S256x1024_0_0 inb_S16x64x1024_S1x64x1024_13_0_0 inb_S16x256x64_S1x256x64_13_0_0 z
  · exact slab_eq x0 x1 12 inb_S256x1024_S256x1024_0_0 inb_S16x64x1024_S1x64x1024_12_0_0 inb_S16x256x64_S1x256x64_12_0_0 z
  · exact slab_eq x0 x1 11 inb_S256x1024_S256x1024_0_0 inb_S16x64x1024_S1x64x1024_11_0_0 inb_S16x256x64_S1x256x64_11_0_0 z
  · exact slab_eq x0 x1 10 inb_S256x1024_S256x1024_0_0 inb_S16x64x1024_S1x64x1024_10_0_0 inb_S16x256x64_S1x256x64_10_0_0 z
  · exact slab_eq x0 x1 9 inb_S256x1024_S256x1024_0_0 inb_S16x64x1024_S1x64x1024_9_0_0 inb_S16x256x64_S1x256x64_9_0_0 z
  · exact slab_eq x0 x1 8 inb_S256x1024_S256x1024_0_0 inb_S16x64x1024_S1x64x1024_8_0_0 inb_S16x256x64_S1x256x64_8_0_0 z
  · exact slab_eq x0 x1 7 inb_S256x1024_S256x1024_0_0 inb_S16x64x1024_S1x64x1024_7_0_0 inb_S16x256x64_S1x256x64_7_0_0 z
  · exact slab_eq x0 x1 6 inb_S256x1024_S256x1024_0_0 inb_S16x64x1024_S1x64x1024_6_0_0 inb_S16x256x64_S1x256x64_6_0_0 z
  · exact slab_eq x0 x1 5 inb_S256x1024_S256x1024_0_0 inb_S16x64x1024_S1x64x1024_5_0_0 inb_S16x256x64_S1x256x64_5_0_0 z
  · exact slab_eq x0 x1 4 inb_S256x1024_S256x1024_0_0 inb_S16x64x1024_S1x64x1024_4_0_0 inb_S16x256x64_S1x256x64_4_0_0 z
  · exact slab_eq x0 x1 3 inb_S256x1024_S256x1024_0_0 inb_S16x64x1024_S1x64x1024_3_0_0 inb_S16x256x64_S1x256x64_3_0_0 z
  · exact slab_eq x0 x1 2 inb_S256x1024_S256x1024_0_0 inb_S16x64x1024_S1x64x1024_2_0_0 inb_S16x256x64_S1x256x64_2_0_0 z
  · exact slab_eq x0 x1 1 inb_S256x1024_S256x1024_0_0 inb_S16x64x1024_S1x64x1024_1_0_0 inb_S16x256x64_S1x256x64_1_0_0 z
  · exact slab_eq x0 x1 0 inb_S256x1024_S256x1024_0_0 inb_S16x64x1024_S1x64x1024_0_0_0 inb_S16x256x64_S1x256x64_0_0_0 z

/-- The sixteen stores into output block 1 tile it, and each is the block function on its slab: the block is that function. -/
theorem out0_5_eq (x0 : Vec Ideal S256x1024 .f32) (x1 x2 x3 : Vec Ideal S16x64x1024 .f32) :
    out0_5 (F := Ideal) x0 x1 x2 x3 = headBlock x0 x2 := by
  funext y
  unfold out0_5
  refine View.canon_apply_of_pieces (headBlock x0 x2) _ ?_ y (cover0_5 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals intro z
  · exact slab_eq x0 x2 15 inb_S256x1024_S256x1024_0_0 inb_S16x64x1024_S1x64x1024_15_0_0 inb_S16x256x64_S1x256x64_15_0_0 z
  · exact slab_eq x0 x2 14 inb_S256x1024_S256x1024_0_0 inb_S16x64x1024_S1x64x1024_14_0_0 inb_S16x256x64_S1x256x64_14_0_0 z
  · exact slab_eq x0 x2 13 inb_S256x1024_S256x1024_0_0 inb_S16x64x1024_S1x64x1024_13_0_0 inb_S16x256x64_S1x256x64_13_0_0 z
  · exact slab_eq x0 x2 12 inb_S256x1024_S256x1024_0_0 inb_S16x64x1024_S1x64x1024_12_0_0 inb_S16x256x64_S1x256x64_12_0_0 z
  · exact slab_eq x0 x2 11 inb_S256x1024_S256x1024_0_0 inb_S16x64x1024_S1x64x1024_11_0_0 inb_S16x256x64_S1x256x64_11_0_0 z
  · exact slab_eq x0 x2 10 inb_S256x1024_S256x1024_0_0 inb_S16x64x1024_S1x64x1024_10_0_0 inb_S16x256x64_S1x256x64_10_0_0 z
  · exact slab_eq x0 x2 9 inb_S256x1024_S256x1024_0_0 inb_S16x64x1024_S1x64x1024_9_0_0 inb_S16x256x64_S1x256x64_9_0_0 z
  · exact slab_eq x0 x2 8 inb_S256x1024_S256x1024_0_0 inb_S16x64x1024_S1x64x1024_8_0_0 inb_S16x256x64_S1x256x64_8_0_0 z
  · exact slab_eq x0 x2 7 inb_S256x1024_S256x1024_0_0 inb_S16x64x1024_S1x64x1024_7_0_0 inb_S16x256x64_S1x256x64_7_0_0 z
  · exact slab_eq x0 x2 6 inb_S256x1024_S256x1024_0_0 inb_S16x64x1024_S1x64x1024_6_0_0 inb_S16x256x64_S1x256x64_6_0_0 z
  · exact slab_eq x0 x2 5 inb_S256x1024_S256x1024_0_0 inb_S16x64x1024_S1x64x1024_5_0_0 inb_S16x256x64_S1x256x64_5_0_0 z
  · exact slab_eq x0 x2 4 inb_S256x1024_S256x1024_0_0 inb_S16x64x1024_S1x64x1024_4_0_0 inb_S16x256x64_S1x256x64_4_0_0 z
  · exact slab_eq x0 x2 3 inb_S256x1024_S256x1024_0_0 inb_S16x64x1024_S1x64x1024_3_0_0 inb_S16x256x64_S1x256x64_3_0_0 z
  · exact slab_eq x0 x2 2 inb_S256x1024_S256x1024_0_0 inb_S16x64x1024_S1x64x1024_2_0_0 inb_S16x256x64_S1x256x64_2_0_0 z
  · exact slab_eq x0 x2 1 inb_S256x1024_S256x1024_0_0 inb_S16x64x1024_S1x64x1024_1_0_0 inb_S16x256x64_S1x256x64_1_0_0 z
  · exact slab_eq x0 x2 0 inb_S256x1024_S256x1024_0_0 inb_S16x64x1024_S1x64x1024_0_0_0 inb_S16x256x64_S1x256x64_0_0_0 z

/-- The sixteen stores into output block 2 tile it, and each is the block function on its slab: the block is that function. -/
theorem out0_6_eq (x0 : Vec Ideal S256x1024 .f32) (x1 x2 x3 : Vec Ideal S16x64x1024 .f32) :
    out0_6 (F := Ideal) x0 x1 x2 x3 = headBlock x0 x3 := by
  funext y
  unfold out0_6
  refine View.canon_apply_of_pieces (headBlock x0 x3) _ ?_ y (cover0_6 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals intro z
  · exact slab_eq x0 x3 15 inb_S256x1024_S256x1024_0_0 inb_S16x64x1024_S1x64x1024_15_0_0 inb_S16x256x64_S1x256x64_15_0_0 z
  · exact slab_eq x0 x3 14 inb_S256x1024_S256x1024_0_0 inb_S16x64x1024_S1x64x1024_14_0_0 inb_S16x256x64_S1x256x64_14_0_0 z
  · exact slab_eq x0 x3 13 inb_S256x1024_S256x1024_0_0 inb_S16x64x1024_S1x64x1024_13_0_0 inb_S16x256x64_S1x256x64_13_0_0 z
  · exact slab_eq x0 x3 12 inb_S256x1024_S256x1024_0_0 inb_S16x64x1024_S1x64x1024_12_0_0 inb_S16x256x64_S1x256x64_12_0_0 z
  · exact slab_eq x0 x3 11 inb_S256x1024_S256x1024_0_0 inb_S16x64x1024_S1x64x1024_11_0_0 inb_S16x256x64_S1x256x64_11_0_0 z
  · exact slab_eq x0 x3 10 inb_S256x1024_S256x1024_0_0 inb_S16x64x1024_S1x64x1024_10_0_0 inb_S16x256x64_S1x256x64_10_0_0 z
  · exact slab_eq x0 x3 9 inb_S256x1024_S256x1024_0_0 inb_S16x64x1024_S1x64x1024_9_0_0 inb_S16x256x64_S1x256x64_9_0_0 z
  · exact slab_eq x0 x3 8 inb_S256x1024_S256x1024_0_0 inb_S16x64x1024_S1x64x1024_8_0_0 inb_S16x256x64_S1x256x64_8_0_0 z
  · exact slab_eq x0 x3 7 inb_S256x1024_S256x1024_0_0 inb_S16x64x1024_S1x64x1024_7_0_0 inb_S16x256x64_S1x256x64_7_0_0 z
  · exact slab_eq x0 x3 6 inb_S256x1024_S256x1024_0_0 inb_S16x64x1024_S1x64x1024_6_0_0 inb_S16x256x64_S1x256x64_6_0_0 z
  · exact slab_eq x0 x3 5 inb_S256x1024_S256x1024_0_0 inb_S16x64x1024_S1x64x1024_5_0_0 inb_S16x256x64_S1x256x64_5_0_0 z
  · exact slab_eq x0 x3 4 inb_S256x1024_S256x1024_0_0 inb_S16x64x1024_S1x64x1024_4_0_0 inb_S16x256x64_S1x256x64_4_0_0 z
  · exact slab_eq x0 x3 3 inb_S256x1024_S256x1024_0_0 inb_S16x64x1024_S1x64x1024_3_0_0 inb_S16x256x64_S1x256x64_3_0_0 z
  · exact slab_eq x0 x3 2 inb_S256x1024_S256x1024_0_0 inb_S16x64x1024_S1x64x1024_2_0_0 inb_S16x256x64_S1x256x64_2_0_0 z
  · exact slab_eq x0 x3 1 inb_S256x1024_S256x1024_0_0 inb_S16x64x1024_S1x64x1024_1_0_0 inb_S16x256x64_S1x256x64_1_0_0 z
  · exact slab_eq x0 x3 0 inb_S256x1024_S256x1024_0_0 inb_S16x64x1024_S1x64x1024_0_0_0 inb_S16x256x64_S1x256x64_0_0_0 z

end Cert.KernelIdeal.R0

end
-- ==== Proof.Region0.lean ====
/-
  The fused projection, from blocks to arrays. Each of the sixteen grid points takes 256 rows of the activations and the
  three whole weights and leaves, in each output, the 16×256×64 block of per-head inner products of those rows; the blocks
  tile the three 32×2048×64 arrays, so each array ends as the projection of the whole activations by its weight:
  entry (16·b + h, s, d) = Σ_k X[2048·b + s, k] · W[h, d, k].
-/
import proofs.«145650_j50130858279276_2_alg».proof.Proof.Region0Pay

noncomputable section

namespace Cert.KernelIdeal.R0

open Idealize.ShloMosaic Idealize.ShloMosaic.TcCoe Idealize.SL.Sem Idealize.ShloMosaic.Pipeline
open Idealize.ShloMosaic.ValueIdx Cert.KernelIdeal Cert.KernelIdeal.Gen

variable (V : (c : Dev nD) → (b : Ref sig .tc) → Buf (Elt Ideal) ((c : Thread nD τ).loc b))

/-! ## The projection as one function of the whole arrays -/

/-- A 32×2048×64 array of per-head projections of the 4096×1024 activations by a 16×64×1024 weight: entry (g, s, d),
    g = 16·b + h, is the inner product of row 2048·b + s of the activations with row d of the weight's slab h. -/
def proj (A : S4096x1024.Idx → Elt Ideal .f32) (W : S16x64x1024.Idx → Elt Ideal .f32) : S32x2048x64.Idx → Elt Ideal .bf16 :=
  fun i => ∑ k : Fin 1024,
    A (ix2 (⟨(i 0).val / 16 * 2048 + (i 1).val, by
        have h0 : (i 0).val < 32 := (i 0).isLt
        have h1 : (i 1).val < 2048 := (i 1).isLt
        omega⟩ : Fin 4096) k)
      * W (ix3 (⟨(i 0).val % 16, Nat.mod_lt _ (by decide)⟩ : Fin 16) (⟨(i 2).val, (i 2).isLt⟩ : Fin 64) k)

/-- At batch b, head h, position s, coordinate d it is the sum over the features of the activation times the weight. -/
theorem proj_apply (A : S4096x1024.Idx → Elt Ideal .f32) (W : S16x64x1024.Idx → Elt Ideal .f32)
    (b : Fin 2) (h : Fin 16) (s : Fin 2048) (d : Fin 64) :
    proj A W (ix3 (Cert.Spec.head b h) s d) = ∑ k : Fin 1024, A (ix2 (Cert.Spec.row b s) k) * W (ix3 h d k) := by
  unfold proj
  refine Finset.sum_congr rfl fun k _ => ?_
  refine congrArg₂ (· * ·) (congrArg A ?_) (congrArg W ?_)
  · funext a; apply Fin.ext
    match a with
    | ⟨0, _⟩ =>
      show (b.val * 16 + h.val) / 16 * 2048 + s.val = b.val * 2048 + s.val
      have := h.isLt; omega
    | ⟨1, _⟩ => rfl
  · funext a; apply Fin.ext
    match a with
    | ⟨0, _⟩ =>
      show (b.val * 16 + h.val) % 16 = h.val
      have := h.isLt; omega
    | ⟨1, _⟩ => rfl
    | ⟨2, _⟩ => rfl

/-! ## The input blocks at a grid point, read off the arrays -/

/-- An entry of the block of activation rows at point t is the array's entry the block's offsets place it at. -/
theorem x_blk (c : Dev nD) (t : Fin cfg0.N) (y : S256x1024.Idx) (i : S4096x1024.Idx)
    (h0 : (i 0).val = win0_0.index t (0 : Fin 2) * 256 + (y 0).val)
    (h1 : (i 1).val = win0_0.index t (1 : Fin 2) * 1024 + (y 1).val) :
    (iblk0 V c 0 t : Vec Ideal S256x1024 .f32) y = (V c main_v0 : S4096x1024.Idx → Elt Ideal .f32) i := by
  show (V c main_v0 : S4096x1024.Idx → Elt Ideal .f32) (((cfg0.win 0).blk t).view.emb y) = _
  congr 1
  funext a; apply Fin.ext
  match a with
  | ⟨0, _⟩ => show win0_0.index t (0 : Fin 2) * 256 + 1 * (y 0).val = (i 0).val; omega
  | ⟨1, _⟩ => show win0_0.index t (1 : Fin 2) * 1024 + 1 * (y 1).val = (i 1).val; omega

/-- An entry of the whole-array block of weight 1 at point t is the array's entry the block's offsets place it at. -/
theorem w1_blk (c : Dev nD) (t : Fin cfg0.N) (y : S16x64x1024.Idx) (i : S16x64x1024.Idx)
    (h0 : (i 0).val = win0_1.index t (0 : Fin 3) * 16 + (y 0).val)
    (h1 : (i 1).val = win0_1.index t (1 : Fin 3) * 64 + (y 1).val)
    (h2 : (i 2).val = win0_1.index t (2 : Fin 3) * 1024 + (y 2).val) :
    (iblk0 V c 1 t : Vec Ideal S16x64x1024 .f32) y = (V c main_v2 : S16x64x1024.Idx → Elt Ideal .f32) i := by
  show (V c main_v2 : S16x64x1024.Idx → Elt Ideal .f32) (((cfg0.win 1).blk t).view.emb y) = _
  congr 1
  funext a; apply Fin.ext
  match a with
  | ⟨0, _⟩ => show win0_1.index t (0 : Fin 3) * 16 + 1 * (y 0).val = (i 0).val; omega
  | ⟨1, _⟩ => show win0_1.index t (1 : Fin 3) * 64 + 1 * (y 1).val = (i 1).val; omega
  | ⟨2, _⟩ => show win0_1.index t (2 : Fin 3) * 1024 + 1 * (y 2).val = (i 2).val; omega

/-- An entry of the whole-array block of weight 2 at point t is the array's entry the block's offsets place it at. -/
theorem w2_blk (c : Dev nD) (t : Fin cfg0.N) (y : S16x64x1024.Idx) (i : S16x64x1024.Idx)
    (h0 : (i 0).val = win0_2.index t (0 : Fin 3) * 16 + (y 0).val)
    (h1 : (i 1).val = win0_2.index t (1 : Fin 3) * 64 + (y 1).val)
    (h2 : (i 2).val = win0_2.index t (2 : Fin 3) * 1024 + (y 2).val) :
    (iblk0 V c 2 t : Vec Ideal S16x64x1024 .f32) y = (V c main_v4 : S16x64x1024.Idx → Elt Ideal .f32) i := by
  show (V c main_v4 : S16x64x1024.Idx → Elt Ideal .f32) (((cfg0.win 2).blk t).view.emb y) = _
  congr 1
  funext a; apply Fin.ext
  match a with
  | ⟨0, _⟩ => show win0_2.index t (0 : Fin 3) * 16 + 1 * (y 0).val = (i 0).val; omega
  | ⟨1, _⟩ => show win0_2.index t (1 : Fin 3) * 64 + 1 * (y 1).val = (i 1).val; omega
  | ⟨2, _⟩ => show win0_2.index t (2 : Fin 3) * 1024 + 1 * (y 2).val = (i 2).val; omega

/-- An entry of the whole-array block of weight 3 at point t is the array's entry the block's offsets place it at. -/
theorem w3_blk (c : Dev nD) (t : Fin cfg0.N) (y : S16x64x1024.Idx) (i : S16x64x1024.Idx)
    (h0 : (i 0).val = win0_3.index t (0 : Fin 3) * 16 + (y 0).val)
    (h1 : (i 1).val = win0_3.index t (1 : Fin 3) * 64 + (y 1).val)
    (h2 : (i 2).val = win0_3.index t (2 : Fin 3) * 1024 + (y 2).val) :
    (iblk0 V c 3 t : Vec Ideal S16x64x1024 .f32) y = (V c main_v6 : S16x64x1024.Idx → Elt Ideal .f32) i := by
  show (V c main_v6 : S16x64x1024.Idx → Elt Ideal .f32) (((cfg0.win 3).blk t).view.emb y) = _
  congr 1
  funext a; apply Fin.ext
  match a with
  | ⟨0, _⟩ => show win0_3.index t (0 : Fin 3) * 16 + 1 * (y 0).val = (i 0).val; omega
  | ⟨1, _⟩ => show win0_3.index t (1 : Fin 3) * 64 + 1 * (y 1).val = (i 1).val; omega
  | ⟨2, _⟩ => show win0_3.index t (2 : Fin 3) * 1024 + 1 * (y 2).val = (i 2).val; omega

/-! ## Output 0: from the blocks to the array -/

/-- The index maps, decided over the sixteen grid points: point t takes activation rows block t, the whole weight, and
    writes block (t / 8, t % 8, 0) of the output. -/
theorem idx_facts4 : ∀ t : Fin cfg0.N,
    win0_0.index t (0 : Fin 2) = win0_4.index t (0 : Fin 3) * 8 + win0_4.index t (1 : Fin 3)
    ∧ win0_0.index t (1 : Fin 2) = 0
    ∧ win0_1.index t (0 : Fin 3) = 0 ∧ win0_1.index t (1 : Fin 3) = 0 ∧ win0_1.index t (2 : Fin 3) = 0
    ∧ win0_4.index t (0 : Fin 3) ≤ 1 ∧ win0_4.index t (1 : Fin 3) ≤ 7 ∧ win0_4.index t (2 : Fin 3) = 0 :=
  (by decide +kernel : ∀ t : Fin grid0.N, _)

/-- Every block of the output is some point's. -/
theorem idx_onto4 : ∀ (q0 : Fin 2) (q1 : Fin 8), ∃ t : Fin cfg0.N, win0_4.index t = ![q0.val, q1.val, 0] :=
  (by decide +kernel : ∀ (q0 : Fin 2) (q1 : Fin 8), ∃ t : Fin grid0.N, win0_4.index t = ![q0.val, q1.val, 0])

/-- What point t writes back is its block of the projection of the whole arrays. -/
theorem flushed4_eq (c : Dev nD) (t : Fin cfg0.N) :
    (dat0 (F := Ideal) V c).flushed 4 t
      = ((cfg0.win 4).blk t).view.read (Elt Ideal) (proj (V c main_v0) (V c main_v2)) := by
  show (cfg0.win 4).cut (grid0.coords t) ((dat0 (F := Ideal) V c).after 4 t) = _
  rw [after0_4, out0_4_eq]
  obtain ⟨e0, e1, e2, e3, e4, e5, e6, e7⟩ := idx_facts4 t
  funext j
  show headBlock (iblk0 V c 0 t) (iblk0 V c 1 t) j
    = proj (V c main_v0) (V c main_v2) (((cfg0.win 4).blk t).view.emb j)
  have E0 : ((((cfg0.win 4).blk t).view.emb j) 0).val = win0_4.index t (0 : Fin 3) * 16 + 1 * (j 0).val := rfl
  have E1 : ((((cfg0.win 4).blk t).view.emb j) 1).val = win0_4.index t (1 : Fin 3) * 256 + 1 * (j 1).val := rfl
  have E2 : ((((cfg0.win 4).blk t).view.emb j) 2).val = win0_4.index t (2 : Fin 3) * 64 + 1 * (j 2).val := rfl
  have hj0 : (j 0).val < 16 := (j 0).isLt
  have hj1 : (j 1).val < 256 := (j 1).isLt
  unfold headBlock proj
  refine Finset.sum_congr rfl fun k _ => ?_
  refine congrArg₂ (· * ·) (x_blk V c t _ _ ?_ ?_) (w1_blk V c t _ _ ?_ ?_ ?_)
  · show ((((cfg0.win 4).blk t).view.emb j) 0).val / 16 * 2048 + ((((cfg0.win 4).blk t).view.emb j) 1).val
      = win0_0.index t (0 : Fin 2) * 256 + (j 1).val
    rw [E0, E1]; omega
  · show k.val = win0_0.index t (1 : Fin 2) * 1024 + k.val
    omega
  · show ((((cfg0.win 4).blk t).view.emb j) 0).val % 16 = win0_1.index t (0 : Fin 3) * 16 + (j 0).val
    rw [E0]; omega
  · show ((((cfg0.win 4).blk t).view.emb j) 2).val = win0_1.index t (1 : Fin 3) * 64 + (j 2).val
    rw [E2]; omega
  · show k.val = win0_1.index t (2 : Fin 3) * 1024 + k.val
    omega

/-- An index of the output array is in point t's block iff each coordinate is in the block's range on its axis. -/
theorem mem_blk4 (t : Fin cfg0.N) (i : S32x2048x64.Idx) :
    i ∈ ((cfg0.win 4).blk t).view.set ↔ ∀ a : Fin 3, win0_4.index t a * S16x256x64.size a ≤ (i a).val
      ∧ (i a).val < win0_4.index t a * S16x256x64.size a + S16x256x64.size a := by
  show i ∈ ((View.whole main_v7_0).slice (win0_4.rect t)).set ↔ _
  rw [View.set_slice_whole, Rect.mem_set_unit]
  exact Iff.rfl

/-- Every index of the output array is in some point's block: the point of (g, s) is (g / 16) · 8 + s / 256. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto4 ⟨(i 0).val / 16, by omega⟩ ⟨(i 1).val / 256, by omega⟩
  have q0 : win0_4.index t (0 : Fin 3) = (i 0).val / 16 := congrFun ht 0
  have q1 : win0_4.index t (1 : Fin 3) = (i 1).val / 256 := congrFun ht 1
  have q2 : win0_4.index t (2 : Fin 3) = 0 := congrFun ht 2
  refine ⟨t, flush0_4 t, ?_⟩
  rw [mem_blk4]
  intro a
  match a with
  | ⟨0, _⟩ =>
    show win0_4.index t (0 : Fin 3) * 16 ≤ (i 0).val ∧ (i 0).val < win0_4.index t (0 : Fin 3) * 16 + 16
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 64 ≤ (i 2).val ∧ (i 2).val < win0_4.index t (2 : Fin 3) * 64 + 64
    omega

/-- So after the sixteen points the output array is the projection of the whole arrays. -/
theorem final4 (c : Dev nD) :
    (dat0 (F := Ideal) V c).arrAt 4 cfg0.N = proj (V c main_v0) (V c main_v2) :=
  (dat0 (F := Ideal) V c).arrAt_eq_of_cover 4 (proj (V c main_v0) (V c main_v2))
    (fun t _ => flushed4_eq V c t) cover4

/-- The query at batch b, head h, position s, coordinate d. -/
theorem q_value (c : Dev nD) (b : Fin 2) (h : Fin 16) (s : Fin 2048) (d : Fin 64) :
    (dat0 (F := Ideal) V c).arrAt 4 cfg0.N (ix3 (Cert.Spec.head b h) s d)
      = ∑ k : Fin 1024, HMul.hMul (α := EReal) (β := EReal) (γ := EReal)
          (V c main_v0 (ix2 (Cert.Spec.row b s) k)) (V c main_v2 (ix3 h d k)) := by
  rw [final4]
  exact proj_apply (V c main_v0) (V c main_v2) b h s d

/-! ## Output 1: from the blocks to the array -/

/-- The index maps, decided over the sixteen grid points: point t takes activation rows block t, the whole weight, and
    writes block (t / 8, t % 8, 0) of the output. -/
theorem idx_facts5 : ∀ t : Fin cfg0.N,
    win0_0.index t (0 : Fin 2) = win0_5.index t (0 : Fin 3) * 8 + win0_5.index t (1 : Fin 3)
    ∧ win0_0.index t (1 : Fin 2) = 0
    ∧ win0_2.index t (0 : Fin 3) = 0 ∧ win0_2.index t (1 : Fin 3) = 0 ∧ win0_2.index t (2 : Fin 3) = 0
    ∧ win0_5.index t (0 : Fin 3) ≤ 1 ∧ win0_5.index t (1 : Fin 3) ≤ 7 ∧ win0_5.index t (2 : Fin 3) = 0 :=
  (by decide +kernel : ∀ t : Fin grid0.N, _)

/-- Every block of the output is some point's. -/
theorem idx_onto5 : ∀ (q0 : Fin 2) (q1 : Fin 8), ∃ t : Fin cfg0.N, win0_5.index t = ![q0.val, q1.val, 0] :=
  (by decide +kernel : ∀ (q0 : Fin 2) (q1 : Fin 8), ∃ t : Fin grid0.N, win0_5.index t = ![q0.val, q1.val, 0])

/-- What point t writes back is its block of the projection of the whole arrays. -/
theorem flushed5_eq (c : Dev nD) (t : Fin cfg0.N) :
    (dat0 (F := Ideal) V c).flushed 5 t
      = ((cfg0.win 5).blk t).view.read (Elt Ideal) (proj (V c main_v0) (V c main_v4)) := by
  show (cfg0.win 5).cut (grid0.coords t) ((dat0 (F := Ideal) V c).after 5 t) = _
  rw [after0_5, out0_5_eq]
  obtain ⟨e0, e1, e2, e3, e4, e5, e6, e7⟩ := idx_facts5 t
  funext j
  show headBlock (iblk0 V c 0 t) (iblk0 V c 2 t) j
    = proj (V c main_v0) (V c main_v4) (((cfg0.win 5).blk t).view.emb j)
  have E0 : ((((cfg0.win 5).blk t).view.emb j) 0).val = win0_5.index t (0 : Fin 3) * 16 + 1 * (j 0).val := rfl
  have E1 : ((((cfg0.win 5).blk t).view.emb j) 1).val = win0_5.index t (1 : Fin 3) * 256 + 1 * (j 1).val := rfl
  have E2 : ((((cfg0.win 5).blk t).view.emb j) 2).val = win0_5.index t (2 : Fin 3) * 64 + 1 * (j 2).val := rfl
  have hj0 : (j 0).val < 16 := (j 0).isLt
  have hj1 : (j 1).val < 256 := (j 1).isLt
  unfold headBlock proj
  refine Finset.sum_congr rfl fun k _ => ?_
  refine congrArg₂ (· * ·) (x_blk V c t _ _ ?_ ?_) (w2_blk V c t _ _ ?_ ?_ ?_)
  · show ((((cfg0.win 5).blk t).view.emb j) 0).val / 16 * 2048 + ((((cfg0.win 5).blk t).view.emb j) 1).val
      = win0_0.index t (0 : Fin 2) * 256 + (j 1).val
    rw [E0, E1]; omega
  · show k.val = win0_0.index t (1 : Fin 2) * 1024 + k.val
    omega
  · show ((((cfg0.win 5).blk t).view.emb j) 0).val % 16 = win0_2.index t (0 : Fin 3) * 16 + (j 0).val
    rw [E0]; omega
  · show ((((cfg0.win 5).blk t).view.emb j) 2).val = win0_2.index t (1 : Fin 3) * 64 + (j 2).val
    rw [E2]; omega
  · show k.val = win0_2.index t (2 : Fin 3) * 1024 + k.val
    omega

/-- An index of the output array is in point t's block iff each coordinate is in the block's range on its axis. -/
theorem mem_blk5 (t : Fin cfg0.N) (i : S32x2048x64.Idx) :
    i ∈ ((cfg0.win 5).blk t).view.set ↔ ∀ a : Fin 3, win0_5.index t a * S16x256x64.size a ≤ (i a).val
      ∧ (i a).val < win0_5.index t a * S16x256x64.size a + S16x256x64.size a := by
  show i ∈ ((View.whole main_v7_1).slice (win0_5.rect t)).set ↔ _
  rw [View.set_slice_whole, Rect.mem_set_unit]
  exact Iff.rfl

/-- Every index of the output array is in some point's block: the point of (g, s) is (g / 16) · 8 + s / 256. -/
theorem cover5 (i : S32x2048x64.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 64 := (i 2).isLt
  obtain ⟨t, ht⟩ := idx_onto5 ⟨(i 0).val / 16, by omega⟩ ⟨(i 1).val / 256, by omega⟩
  have q0 : win0_5.index t (0 : Fin 3) = (i 0).val / 16 := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ =>
    show win0_5.index t (0 : Fin 3) * 16 ≤ (i 0).val ∧ (i 0).val < win0_5.index t (0 : Fin 3) * 16 + 16
    omega
  | ⟨1, _⟩ =>
    show win0_5.index t (1 : Fin 3) * 256 ≤ (i 1).val ∧ (i 1).val < win0_5.index t (1 : Fin 3) * 256 + 256
    omega
  | ⟨2, _⟩ =>
    show win0_5.index t (2 : Fin 3) * 64 ≤ (i 2).val ∧ (i 2).val < win0_5.index t (2 : Fin 3) * 64 + 64
    omega

/-- So after the sixteen points the output array is the projection of the whole arrays. -/
theorem final5 (c : Dev nD) :
    (dat0 (F := Ideal) V c).arrAt 5 cfg0.N = proj (V c main_v0) (V c main_v4) :=
  (dat0 (F := Ideal) V c).arrAt_eq_of_cover 5 (proj (V c main_v0) (V c main_v4))
    (fun t _ => flushed5_eq V c t) cover5

/-- The key at batch b, head h, position s, coordinate d. -/
theorem k_value (c : Dev nD) (b : Fin 2) (h : Fin 16) (s : Fin 2048) (d : Fin 64) :
    (dat0 (F := Ideal) V c).arrAt 5 cfg0.N (ix3 (Cert.Spec.head b h) s d)
      = ∑ k : Fin 1024, HMul.hMul (α := EReal) (β := EReal) (γ := EReal)
          (V c main_v0 (ix2 (Cert.Spec.row b s) k)) (V c main_v4 (ix3 h d k)) := by
  rw [final5]
  exact proj_apply (V c main_v0) (V c main_v4) b h s d

/-! ## Output 2: from the blocks to the array -/

/-- The index maps, decided over the sixteen grid points: point t takes activation rows block t, the whole weight, and
    writes block (t / 8, t % 8, 0) of the output. -/
theorem idx_facts6 : ∀ t : Fin cfg0.N,
    win0_0.index t (0 : Fin 2) = win0_6.index t (0 : Fin 3) * 8 + win0_6.index t (1 : Fin 3)
    ∧ win0_0.index t (1 : Fin 2) = 0
    ∧ win0_3.index t (0 : Fin 3) = 0 ∧ win0_3.index t (1 : Fin 3) = 0 ∧ win0_3.index t (2 : Fin 3) = 0
    ∧ win0_6.index t (0 : Fin 3) ≤ 1 ∧ win0_6.index t (1 : Fin 3) ≤ 7 ∧ win0_6.index t (2 : Fin 3) = 0 :=
  (by decide +kernel : ∀ t : Fin grid0.N, _)

/-- Every block of the output is some point's. -/
theorem idx_onto6 : ∀ (q0 : Fin 2) (q1 : Fin 8), ∃ t : Fin cfg0.N, win0_6.index t = ![q0.val, q1.val, 0] :=
  (by decide +kernel : ∀ (q0 : Fin 2) (q1 : Fin 8), ∃ t : Fin grid0.N, win0_6.index t = ![q0.val, q1.val, 0])

/-- What point t writes back is its block of the projection of the whole arrays. -/
theorem flushed6_eq (c : Dev nD) (t : Fin cfg0.N) :
    (dat0 (F := Ideal) V c).flushed 6 t
      = ((cfg0.win 6).blk t).view.read (Elt Ideal) (proj (V c main_v0) (V c main_v6)) := by
  show (cfg0.win 6).cut (grid0.coords t) ((dat0 (F := Ideal) V c).after 6 t) = _
  rw [after0_6, out0_6_eq]
  obtain ⟨e0, e1, e2, e3, e4, e5, e6, e7⟩ := idx_facts6 t
  funext j
  show headBlock (iblk0 V c 0 t) (iblk0 V c 3 t) j
    = proj (V c main_v0) (V c main_v6) (((cfg0.win 6).blk t).view.emb j)
  have E0 : ((((cfg0.win 6).blk t).view.emb j) 0).val = win0_6.index t (0 : Fin 3) * 16 + 1 * (j 0).val := rfl
  have E1 : ((((cfg0.win 6).blk t).view.emb j) 1).val = win0_6.index t (1 : Fin 3) * 256 + 1 * (j 1).val := rfl
  have E2 : ((((cfg0.win 6).blk t).view.emb j) 2).val = win0_6.index t (2 : Fin 3) * 64 + 1 * (j 2).val := rfl
  have hj0 : (j 0).val < 16 := (j 0).isLt
  have hj1 : (j 1).val < 256 := (j 1).isLt
  unfold headBlock proj
  refine Finset.sum_congr rfl fun k _ => ?_
  refine congrArg₂ (· * ·) (x_blk V c t _ _ ?_ ?_) (w3_blk V c t _ _ ?_ ?_ ?_)
  · show ((((cfg0.win 6).blk t).view.emb j) 0).val / 16 * 2048 + ((((cfg0.win 6).blk t).view.emb j) 1).val
      = win0_0.index t (0 : Fin 2) * 256 + (j 1).val
    rw [E0, E1]; omega
  · show k.val = win0_0.index t (1 : Fin 2) * 1024 + k.val
    omega
  · show ((((cfg0.win 6).blk t).view.emb j) 0).val % 16 = win0_3.index t (0 : Fin 3) * 16 + (j 0).val
    rw [E0]; omega
  · show ((((cfg0.win 6).blk t).view.emb j) 2).val = win0_3.index t (1 : Fin 3) * 64 + (j 2).val
    rw [E2]; omega
  · show k.val = win0_3.index t (2 : Fin 3) * 1024 + k.val
    omega

/-- An index of the output array is in point t's block iff each coordinate is in the block's range on its axis. -/
theorem mem_blk6 (t : Fin cfg0.N) (i : S32x2048x64.Idx) :
    i ∈ ((cfg0.win 6).blk t).view.set ↔ ∀ a : Fin 3, win0_6.index t a * S16x256x64.size a ≤ (i a).val
      ∧ (i a).val < win0_6.index t a * S16x256x64.size a + S16x256x64.size a := by
  show i ∈ ((View.whole main_v7_2).slice (win0_6.rect t)).set ↔ _
  rw [View.set_slice_whole, Rect.mem_set_unit]
  exact Iff.rfl

/-- Every index of the output array is in some point's block: the point of (g, s) is (g / 16) · 8 + s / 256. -/
theorem cover6 (i : S32x2048x64.Idx) :
    ∃ t : Fin cfg0.N, (cfg0.win 6).flush t = true ∧ i ∈ ((cfg0.win 6).blk t).view.set := by
  have hi0 : (i 0).val < 32 := (i 0).isLt
  have hi1 : (i 1).val < 2048 := (i 1).isLt
  have hi2 : (i 2).val < 64 := (i 2).isLt
  obtain ⟨t, ht⟩ := idx_onto6 ⟨(i 0).val / 16, by omega⟩ ⟨(i 1).val / 256, by omega⟩
  have q0 : win0_6.index t (0 : Fin 3) = (i 0).val / 16 := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ =>
    show win0_6.index t (0 : Fin 3) * 16 ≤ (i 0).val ∧ (i 0).val < win0_6.index t (0 : Fin 3) * 16 + 16
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 64 ≤ (i 2).val ∧ (i 2).val < win0_6.index t (2 : Fin 3) * 64 + 64
    omega

/-- So after the sixteen points the output array is the projection of the whole arrays. -/
theorem final6 (c : Dev nD) :
    (dat0 (F := Ideal) V c).arrAt 6 cfg0.N = proj (V c main_v0) (V c main_v6) :=
  (dat0 (F := Ideal) V c).arrAt_eq_of_cover 6 (proj (V c main_v0) (V c main_v6))
    (fun t _ => flushed6_eq V c t) cover6

/-- The value at batch b, head h, position s, coordinate d. -/
theorem v_value (c : Dev nD) (b : Fin 2) (h : Fin 16) (s : Fin 2048) (d : Fin 64) :
    (dat0 (F := Ideal) V c).arrAt 6 cfg0.N (ix3 (Cert.Spec.head b h) s d)
      = ∑ k : Fin 1024, HMul.hMul (α := EReal) (β := EReal) (γ := EReal)
          (V c main_v0 (ix2 (Cert.Spec.row b s) k)) (V c main_v6 (ix3 h d k)) := by
  rw [final6]
  exact proj_apply (V c main_v0) (V c main_v6) b h s d

end Cert.KernelIdeal.R0

end
-- ==== Proof.Region1Pay.lean ====
/-
  The attention body at one entry of its output block.

  From a block `q0` of 1024 query rows and the 2048 key rows `k0` and value rows `v0` of one batch-head pair
  (each row 64 numbers) the body forms, for query row `r`: the scaled scores S(r, t) = (Σ_d q0[r, d] · k0[t, d]) · 2⁻³,
  their maximum M(r) over t (a fold of `max` from −∞), P(r, t) = exp (S(r, t) − M(r)), and stores at (r, d)
  the quotient (Σ_t P(r, t) · v0[t, d]) / (Σ_t P(r, t)). Changes of float format are the identity on extended reals.
-/
import proofs.«145650_j50130858279276_2_alg».proof.Proof.Gen.KernelIdeal.Skeleton
import proofs.«145650_j50130858279276_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1

open Idealize.ShloMosaic Idealize.ShloMosaic.ValueIdx Cert.KernelIdeal Cert.KernelIdeal.Gen

/-! ## Two layout readings: a column vector made from a vector, and a column spread over the columns -/

/-- An `[a]` vector cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products as sums -/

/-- The operand coordinates of the query–key product: the left operand at (row of the output, contraction
    index), the right operand at (column of the output, contraction index). -/
theorem qk_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Queries against keys: both operands contracted along their 64 coordinates. -/
theorem qk_apply (a : FVec Ideal S1024x64 .bf16) (b : FVec Ideal S2048x64 .bf16) (r : Fin 1024) (t : Fin 2048) :
    matmul (F := Ideal) dot_S1024x64_S2048x64_S1024x2048_1_1_0_0_n_n none a b (constant S1024x2048 .f32 0x00000000#32) (ix2 r t)
      = ∑ d : Fin 64, a (ix2 r d) * b (ix2 t d) := by
  refine (Ideal.matmul_constant_zero_apply dot_S1024x64_S2048x64_S1024x2048_1_1_0_0_n_n none a b (ix2 r t)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r t)
      ((contrEquiv1 dot_S1024x64_S2048x64_S1024x2048_1_1_0_0_n_n 64 rfl rfl).symm k) = ix2 r k :=
    funext fun ax => Fin.ext (by
      match ax with
      | ⟨0, _⟩ => exact qk_lhs_0 _ _
      | ⟨1, _⟩ => exact (qk_lhs_1 _ _).trans hk)
  have er : dot_S1024x64_S2048x64_S1024x2048_1_1_0_0_n_n.rhsIdx (ix2 r t)
      ((contrEquiv1 dot_S1024x64_S2048x64_S1024x2048_1_1_0_0_n_n 64 rfl rfl).symm k) = ix2 t k :=
    funext fun ax => Fin.ext (by
      match ax with
      | ⟨0, _⟩ => exact qk_rhs_0 _ _
      | ⟨1, _⟩ => exact (qk_rhs_1 _ _).trans hk)
  rw [el, er]

/-- The operand coordinates of the probability–value product: the left operand at (row of the output,
    contraction index), the right operand at (contraction index, column of the output). -/
theorem pv_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- Probabilities against values: contracted along the 2048 key positions. -/
theorem pv_apply (p : FVec Ideal S1024x2048 .bf16) (v : FVec Ideal S2048x64 .bf16) (r : Fin 1024) (d : Fin 64) :
    matmul (F := Ideal) dot_S1024x2048_S2048x64_S1024x64_1_0_0_1_n_n none p v (constant S1024x64 .f32 0x00000000#32) (ix2 r d)
      = ∑ t : Fin 2048, p (ix2 r t) * v (ix2 t d) := by
  refine (Ideal.matmul_constant_zero_apply dot_S1024x2048_S2048x64_S1024x64_1_0_0_1_n_n none p v (ix2 r d)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d)
      ((contrEquiv1 dot_S1024x2048_S2048x64_S1024x64_1_0_0_1_n_n 2048 rfl rfl).symm k) = ix2 r k :=
    funext fun ax => Fin.ext (by
      match ax with
      | ⟨0, _⟩ => exact pv_lhs_0 _ _
      | ⟨1, _⟩ => exact (pv_lhs_1 _ _).trans hk)
  have er : dot_S1024x2048_S2048x64_S1024x64_1_0_0_1_n_n.rhsIdx (ix2 r d)
      ((contrEquiv1 dot_S1024x2048_S2048x64_S1024x64_1_0_0_1_n_n 2048 rfl rfl).symm k) = ix2 k d :=
    funext fun ax => Fin.ext (by
      match ax with
      | ⟨0, _⟩ => exact (pv_rhs_0 _ _).trans hk
      | ⟨1, _⟩ => exact pv_rhs_1 _ _)
  rw [el, er]

/-! ## A row of the 1024 × 2048 score block: its index, its sum, its maximum -/

/-- The index of a [1024, 2048] block with column `t` put back into row `r`. -/
theorem lift_row (r : Fin 1024) (t : Fin 2048) :
    reduces_S1024x2048_S1024.lift (ix1 r) t = ix2 r t :=
  funext fun ax => Fin.ext (by match ax with | ⟨0, _⟩ => rfl | ⟨1, _⟩ => rfl)

/-- A row sum: the lane reduction with `add` over the 2048 columns. -/
theorem rowsum_apply (x : FVec Ideal S1024x2048 .f32) (r : Fin 1024) :
    multiReduction .add [1] S1024 x 0x00000000#32 reduces_S1024x2048_S1024 (.inl rfl) rfl (ix1 r)
      = ∑ t : Fin 2048, x (ix2 r t) := by
  refine (Ideal.multiReduction_add_single x 0x00000000#32 reduces_S1024x2048_S1024 (.inl rfl) rfl (ix1 r)).trans ?_
  exact Finset.sum_congr rfl fun t _ => congrArg x (lift_row r t)

/-- A row maximum: the lane reduction with `max` from −∞ over the 2048 columns. -/
theorem rowmax_apply (x : FVec Ideal S1024x2048 .f32) (r : Fin 1024) :
    multiReduction .maximumf [1] S1024 x 0xFF800000#32 reduces_S1024x2048_S1024 (.inl rfl) rfl (ix1 r)
      = (Finset.univ : Finset (Fin 2048)).fold max Cert.Spec.negInf (fun t => x (ix2 r t)) := by
  refine (Ideal.multiReduction_maximumf_single x 0xFF800000#32 reduces_S1024x2048_S1024 (.inl rfl) rfl (ix1 r)).trans ?_
  exact congrArg ((Finset.univ : Finset (Fin 2048)).fold max Cert.Spec.negInf) (funext fun t => congrArg x (lift_row r t))

/-! ## The body's stages -/

variable (q0 : Vec Ideal S1x1024x64 .bf16) (k0 v0 : Vec Ideal S1x2048x64 .bf16)

/-- Scaled score of query row `r` against key row `t`. -/
def bscore (r : Fin 1024) (t : Fin 2048) : EReal :=
  (∑ d : Fin 64, q0 (ix3 (0 : Fin 1) r d) * k0 (ix3 (0 : Fin 1) t d)) * Cert.Spec.scale
/-- Its maximum over the key rows. -/
def bmax (r : Fin 1024) : EReal :=
  (Finset.univ : Finset (Fin 2048)).fold max Cert.Spec.negInf (fun t => bscore q0 k0 r t)
/-- The unnormalised probability. -/
def bprob (r : Fin 1024) (t : Fin 2048) : EReal := Ideal.exp (bscore q0 k0 r t - bmax q0 k0 r)

/-- The score block as the body computes it. -/
def scoreVec : FVec Ideal S1024x2048 .f32 :=
  mulf (matmul dot_S1024x64_S2048x64_S1024x2048_1_1_0_0_n_n none (shapeCast S1024x64 q0 shapeCasts_S1x1024x64_S1024x64 : FVec Ideal S1024x64 .bf16)
      (shapeCast S2048x64 k0 shapeCasts_S1x2048x64_S2048x64 : FVec Ideal S2048x64 .bf16) (constant S1024x2048 .f32 0x00000000#32))
    (broadcast S1024x2048 (Scalar.ofBits .f32 0x3E000000#32))

/-- The block of unnormalised probabilities as the body computes it. -/
def expVec : FVec Ideal S1024x2048 .f32 :=
  exp (subf (scoreVec q0 k0)
    (broadcastTo S1024x2048
      (shapeCast S1024x1 (multiReduction .maximumf [1] S1024 (scoreVec q0 k0) 0xFF800000#32 reduces_S1024x2048_S1024 (.inl rfl) rfl)
        shapeCasts_S1024_S1024x1) broadcasts_S1024x1_S1024x2048))

/-- The body's one stored value is this tree of operations of its three loaded blocks. -/
theorem pay_eq : k1_pay1 q0 k0 v0 =
    shapeCast S1x1024x64
      (truncf .bf16
        (divf
          (matmul dot_S1024x2048_S2048x64_S1024x64_1_0_0_1_n_n none (truncf .bf16 (expVec q0 k0) bitsLt_bf16_f32 : FVec Ideal S1024x2048 .bf16)
            (shapeCast S2048x64 v0 shapeCasts_S1x2048x64_S2048x64 : FVec Ideal S2048x64 .bf16) (constant S1024x64 .f32 0x00000000#32))
          (broadcastTo S1024x64
            (shapeCast S1024x1 (multiReduction .add [1] S1024 (expVec q0 k0) 0x00000000#32 reduces_S1024x2048_S1024 (.inl rfl) rfl)
              shapeCasts_S1024_S1024x1) broadcasts_S1024x1_S1024x64))
        bitsLt_bf16_f32)
      shapeCasts_S1024x64_S1x1024x64 := rfl

theorem scoreVec_apply (r : Fin 1024) (t : Fin 2048) : scoreVec q0 k0 (ix2 r t) = bscore q0 k0 r t := by
  unfold scoreVec bscore
  show matmul (F := Ideal) dot_S1024x64_S2048x64_S1024x2048_1_1_0_0_n_n none (φ₁ := .bf16) (φ₂ := .bf16) _ _ _ (ix2 r t) * Cert.Spec.scale = _
  refine congrArg (· * Cert.Spec.scale) ?_
  refine (qk_apply _ _ r t).trans ?_
  refine Finset.sum_congr rfl fun d _ => ?_
  rw [shapeCast_1ab_ab_apply, shapeCast_1ab_ab_apply]

theorem expVec_apply (r : Fin 1024) (t : Fin 2048) : expVec q0 k0 (ix2 r t) = bprob q0 k0 r t := by
  unfold expVec bprob bmax
  show Ideal.exp (scoreVec q0 k0 (ix2 r t) - broadcastTo S1024x2048 _ broadcasts_S1024x1_S1024x2048 (ix2 r t)) = _
  rw [broadcastTo_a1_ab_apply, shapeCast_a_a1_apply, rowmax_apply, scoreVec_apply]
  simp only [scoreVec_apply]

/-- THE BODY AT AN ENTRY: the value product divided by the row sum. -/
theorem pay_apply (r : Fin 1024) (d : Fin 64) :
    k1_pay1 q0 k0 v0 (ix3 (0 : Fin 1) r d)
      = Ideal.div (∑ t : Fin 2048, bprob q0 k0 r t * v0 (ix3 (0 : Fin 1) t d)) (∑ t : Fin 2048, bprob q0 k0 r t) := by
  rw [pay_eq]
  refine (shapeCast_ab_1ab_apply _ _ (0 : Fin 1) r d).trans ?_
  show Ideal.div (matmul (F := Ideal) dot_S1024x2048_S2048x64_S1024x64_1_0_0_1_n_n none (φ₁ := .bf16) (φ₂ := .bf16) _ _ _ (ix2 r d))
    (broadcastTo S1024x64 _ broadcasts_S1024x1_S1024x64 (ix2 r d)) = _
  rw [pv_apply, broadcastTo_a1_ab_apply, shapeCast_a_a1_apply, rowsum_apply]
  simp only [expVec_apply]
  refine congrArg (fun z => Ideal.div z _) ?_
  refine Finset.sum_congr rfl fun t _ => ?_
  rw [shapeCast_1ab_ab_apply]
  show expVec q0 k0 (ix2 r t) * _ = _
  rw [expVec_apply]

/-! ## The same over whole head-major arrays

Attention read off three [32, 2048, 64] arrays at batch-head pair `g`, query position `s`, coordinate `d`. -/

def gscore (A0 A1 : (⟨3, ![32, 2048, 64]⟩ : Shape).Idx → EReal) (g : Fin 32) (s t : Fin 2048) : EReal :=
  (∑ d : Fin 64, A0 (ix3 g s d) * A1 (ix3 g t d)) * Cert.Spec.scale
def gmax (A0 A1 : (⟨3, ![32, 2048, 64]⟩ : Shape).Idx → EReal) (g : Fin 32) (s : Fin 2048) : EReal :=
  (Finset.univ : Finset (Fin 2048)).fold max Cert.Spec.negInf (fun t => gscore A0 A1 g s t)
def gprob (A0 A1 : (⟨3, ![32, 2048, 64]⟩ : Shape).Idx → EReal) (g : Fin 32) (s t : Fin 2048) : EReal :=
  Ideal.exp (gscore A0 A1 g s t - gmax A0 A1 g s)
def gattn (A0 A1 A2 : (⟨3, ![32, 2048, 64]⟩ : Shape).Idx → EReal) (g : Fin 32) (s : Fin 2048) (d : Fin 64) : EReal :=
  Ideal.div (∑ t : Fin 2048, gprob A0 A1 g s t * A2 (ix3 g t d)) (∑ t : Fin 2048, gprob A0 A1 g s t)

/-- If the three loaded blocks are query row `s` of pair `g` and all key and value rows of pair `g`, the body's
    entry (r, d) is the attention of the whole arrays at (g, s, d). -/
theorem pay_congr (A0 A1 A2 : (⟨3, ![32, 2048, 64]⟩ : Shape).Idx → EReal) (g : Fin 32) (s : Fin 2048) (r : Fin 1024) (d : Fin 64)
    (h0 : ∀ d' : Fin 64, q0 (ix3 (0 : Fin 1) r d') = A0 (ix3 g s d'))
    (h1 : ∀ (t' : Fin 2048) (d' : Fin 64), k0 (ix3 (0 : Fin 1) t' d') = A1 (ix3 g t' d'))
    (h2 : ∀ (t' : Fin 2048) (d' : Fin 64), v0 (ix3 (0 : Fin 1) t' d') = A2 (ix3 g t' d')) :
    k1_pay1 q0 k0 v0 (ix3 (0 : Fin 1) r d) = gattn A0 A1 A2 g s d := by
  rw [pay_apply]
  have hs : ∀ t, bscore q0 k0 r t = gscore A0 A1 g s t := fun t => by
    unfold bscore gscore; simp only [h0, h1]
  have hm : bmax q0 k0 r = gmax A0 A1 g s := by
    unfold bmax gmax; simp only [hs]
  have hp : ∀ t, bprob q0 k0 r t = gprob A0 A1 g s t := fun t => by
    unfold bprob gprob; rw [hs, hm]
  unfold gattn
  simp only [hp, h2]

end Cert.KernelIdeal.R1

end
-- ==== Proof.Region1.lean ====
/-
  The attention region's output array.

  The region runs the attention body at 32 × 2 grid points (g, u): it loads rows u·1024 … u·1024 + 1023 of batch-head
  pair g of the query array and all 2048 rows of pair g of the key and value arrays, and writes the body's
  [1024, 64] result back to the same rows of pair g of the output. The blocks written by the 64 points tile the
  [32, 2048, 64] output, so afterwards every entry (g, s, d) of it is the attention of the three input arrays there.
-/
import proofs.«145650_j50130858279276_2_alg».proof.Proof.Gen.KernelIdeal.Frame
import proofs.«145650_j50130858279276_2_alg».proof.Proof.Region1Pay

set_option maxRecDepth 16384

noncomputable section

namespace Cert.KernelIdeal.R1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-- The output array as one function of the three input arrays: attention at every (g, s, d). -/
def G (c : Dev nD) : S32x2048x64.Idx → EReal := fun i =>
  gattn (V c main_v7_0) (V c main_v7_1) (V c main_v7_2) ⟨(i 0).val, (i 0).isLt⟩ ⟨(i 1).val, (i 1).isLt⟩ ⟨(i 2).val, (i 2).isLt⟩

/-- The block index maps over the 64 grid points: the query block and the output block move together, the key
    and value blocks follow the first grid coordinate only, and the output's block indices stay in range. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 1 ∧ win1_3.index t (2 : Fin 3) = 0 :=
  (by decide +kernel : ∀ t : Fin grid1.N, _)

/-- Every block of the output is some point's. -/
theorem idx_onto : ∀ (q0 : Fin 32) (q1 : Fin 2), ∃ t : Fin cfg1.N, win1_3.index t = ![q0.val, q1.val, 0] :=
  (by decide +kernel : ∀ (q0 : Fin 32) (q1 : Fin 2), ∃ t : Fin grid1.N, win1_3.index t = ![q0.val, q1.val, 0])

/-- What point `t` writes back is block `t` of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz3]
  simp only [View.ld_unit_zero (S := S1x1024x64) hz3, View.ld_unit_zero (S := S1x2048x64) hz3]
  obtain ⟨e00, e01, e02, e10, e11, e12, e20, e21, e22, b0, b1, b2⟩ := idx_facts t
  funext j
  obtain ⟨u, r, d, rfl⟩ : ∃ (u : Fin 1) (r : Fin 1024) (d : Fin 64), j = ix3 u r d := ⟨j 0, j 1, j 2, eq_ix3 j⟩
  obtain rfl : u = 0 := Fin.ext (by omega)
  have hr : r.val < 1024 := r.isLt
  have hd : d.val < 64 := d.isLt
  show k1_pay1 (iblk1 V c 0 t) (iblk1 V c 1 t) (iblk1 V c 2 t) (ix3 (0 : Fin 1) r d)
    = G V c (((cfg1.win 3).blk t).view.emb (ix3 (0 : Fin 1) r d))
  have hemb : ((cfg1.win 3).blk t).view.emb (ix3 (0 : Fin 1) r d)
      = ix3 (⟨win1_3.index t (0 : Fin 3), by omega⟩ : Fin 32) (⟨win1_3.index t (1 : Fin 3) * 1024 + r.val, by omega⟩ : Fin 2048) d := by
    funext a; apply Fin.ext
    match a with
    | ⟨0, _⟩ => show win1_3.index t (0 : Fin 3) * 1 + 1 * 0 = win1_3.index t (0 : Fin 3); omega
    | ⟨1, _⟩ => show win1_3.index t (1 : Fin 3) * 1024 + 1 * r.val = win1_3.index t (1 : Fin 3) * 1024 + r.val; omega
    | ⟨2, _⟩ => show win1_3.index t (2 : Fin 3) * 64 + 1 * d.val = d.val; omega
  rw [hemb]
  refine pay_congr (iblk1 V c 0 t) (iblk1 V c 1 t) (iblk1 V c 2 t) (V c main_v7_0) (V c main_v7_1) (V c main_v7_2)
    (⟨win1_3.index t (0 : Fin 3), by omega⟩ : Fin 32) (⟨win1_3.index t (1 : Fin 3) * 1024 + r.val, by omega⟩ : Fin 2048) r d ?_ ?_ ?_
  · intro d'
    have hd' : d'.val < 64 := d'.isLt
    show V c main_v7_0 (((cfg1.win 0).blk t).view.emb (ix3 (0 : Fin 1) r d')) = V c main_v7_0 _
    refine congrArg (V c main_v7_0) ?_
    funext a; apply Fin.ext
    match a with
    | ⟨0, _⟩ => show win1_0.index t (0 : Fin 3) * 1 + 1 * 0 = win1_3.index t (0 : Fin 3); omega
    | ⟨1, _⟩ => show win1_0.index t (1 : Fin 3) * 1024 + 1 * r.val = win1_3.index t (1 : Fin 3) * 1024 + r.val; omega
    | ⟨2, _⟩ => show win1_0.index t (2 : Fin 3) * 64 + 1 * d'.val = d'.val; omega
  · intro t' d'
    have ht' : t'.val < 2048 := t'.isLt
    have hd' : d'.val < 64 := d'.isLt
    show V c main_v7_1 (((cfg1.win 1).blk t).view.emb (ix3 (0 : Fin 1) t' d')) = V c main_v7_1 _
    refine congrArg (V c main_v7_1) ?_
    funext a; apply Fin.ext
    match a with
    | ⟨0, _⟩ => show win1_1.index t (0 : Fin 3) * 1 + 1 * 0 = win1_3.index t (0 : Fin 3); omega
    | ⟨1, _⟩ => show win1_1.index t (1 : Fin 3) * 2048 + 1 * t'.val = t'.val; omega
    | ⟨2, _⟩ => show win1_1.index t (2 : Fin 3) * 64 + 1 * d'.val = d'.val; omega
  · intro t' d'
    have ht' : t'.val < 2048 := t'.isLt
    have hd' : d'.val < 64 := d'.isLt
    show V c main_v7_2 (((cfg1.win 2).blk t).view.emb (ix3 (0 : Fin 1) t' d')) = V c main_v7_2 _
    refine congrArg (V c main_v7_2) ?_
    funext a; apply Fin.ext
    match a with
    | ⟨0, _⟩ => show win1_2.index t (0 : Fin 3) * 1 + 1 * 0 = win1_3.index t (0 : Fin 3); omega
    | ⟨1, _⟩ => show win1_2.index t (1 : Fin 3) * 2048 + 1 * t'.val = t'.val; omega
    | ⟨2, _⟩ => show win1_2.index t (2 : Fin 3) * 64 + 1 * d'.val = d'.val; omega

/-- An index of the output array lies in point `t`'s block iff each coordinate lies in the block's range. -/
theorem mem_blk (t : Fin cfg1.N) (i : S32x2048x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v8).slice (win1_3.rect t)).set ↔ _
  rw [View.set_slice_whole, Rect.mem_set_unit]
  exact Iff.rfl

/-- Every index of the output array lies in some point's block: the point with block indices (g, s / 1024). -/
theorem cover (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE OUTPUT ARRAY after the region: attention at every index. -/
theorem final (c : Dev nD) : (dat1 (F := Ideal) V c).arrAt 3 cfg1.N = G V c :=
  (dat1 (F := Ideal) V c).arrAt_eq_of_cover 3 (G V c) (fun t _ => flushed_eq V c t) (cover)

/-- The same at an entry, in the specification's words: with the three arrays read by batch, head, position and
    coordinate, the entry of pair `head b h` is the attention with the division after the value product. -/
theorem attn_value (c : Dev nD) (b : Fin 2) (h : Fin 16) (s : Fin 2048) (d : Fin 64) :
    (dat1 (F := Ideal) V c).arrAt 3 cfg1.N (ix3 (Cert.Spec.head b h) s d)
      = Cert.Spec.attn (fun b h s d => V c main_v7_0 (ix3 (Cert.Spec.head b h) s d))
          (fun b h s d => V c main_v7_1 (ix3 (Cert.Spec.head b h) s d))
          (fun b h s d => V c main_v7_2 (ix3 (Cert.Spec.head b h) s d)) b h s d := by
  rw [final]
  rfl

end Cert.KernelIdeal.R1

end
-- ==== Proof.Region2Pay.lean ====
/-
  The output projection's body, one accumulation step at a time. Each of the sixteen steps adds, to the running
  [512, 1024] accumulator, the product of one head's [512, 64] slab of the attention block with that head's
  [1024, 64] slab of the re-laid output weight, contracted along the 64 head coordinates; read at entry (r, o) a
  step adds Σ_d a[r, d] · w[o, d] to what was there.
-/
import proofs.«145650_j50130858279276_2_alg».proof.Proof.Gen.KernelIdeal.Frame
import proofs.«145650_j50130858279276_2_alg».proof.Proof.Spec
import Idealize.ShloMosaic.Lib.Pipeline.Value
import Idealize.ShloMosaic.Lib.ValueIdx
import Idealize.ShloMosaic.PureOps.Ideal.Laws

noncomputable section

namespace Cert.KernelIdeal.R2

open Idealize.ShloMosaic Idealize.ShloMosaic.TcCoe Idealize.SL.Sem Idealize.ShloMosaic.Pipeline Idealize.ShloMosaic.ValueIdx Cert.KernelIdeal Cert.KernelIdeal.Gen

/-- The weight slab viewed without its unit axis reads entry (0, o, d) at (o, d). -/
theorem cast_w (w : Vec Ideal S1x1024x64 .f32) (o : Fin 1024) (d : Fin 64) :
    shapeCast S1024x64 w shapeCasts_S1x1024x64_S1024x64 (ix2 o d) = w (ix3 0 o d) := by
  refine shapeCast_apply w shapeCasts_S1x1024x64_S1024x64 (ix2 o d) (ix3 0 o d) ?_
  rw [Shape.rowMajor_val_three, Shape.rowMajor_val_two]
  show (0 * 1024 + o.val) * 64 + d.val = o.val * 64 + d.val
  omega

/-- The attention slab viewed without its unit axis reads entry (0, r, d) at (r, d). -/
theorem cast_a (a : Vec Ideal S1x512x64 .bf16) (r : Fin 512) (d : Fin 64) :
    shapeCast S512x64 a shapeCasts_S1x512x64_S512x64 (ix2 r d) = a (ix3 0 r d) := by
  refine shapeCast_apply a shapeCasts_S1x512x64_S512x64 (ix2 r d) (ix3 0 r d) ?_
  rw [Shape.rowMajor_val_three, Shape.rowMajor_val_two]
  show (0 * 512 + r.val) * 64 + d.val = r.val * 64 + d.val
  omega

theorem lhs_0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide),
    dif_pos (show (0 : Fin S512x64.rank) ∈ dot_S512x64_S1024x64_S512x1024_1_1_0_0_n_n.lhsNonContracting by decide)]
  rfl
theorem lhs_1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
theorem rhs_0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide),
    dif_pos (show (0 : Fin S1024x64.rank) ∈ dot_S512x64_S1024x64_S512x1024_1_1_0_0_n_n.rhsNonContracting by decide)]
  rfl
theorem rhs_1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

/-- The rows of the product: the left operand of the contraction at output (r, o), position d, is entry (r, d). -/
theorem lhs_at (r : Fin 512) (o : Fin 1024) (d : Fin 64) :
    dot_S512x64_S1024x64_S512x1024_1_1_0_0_n_n.lhsIdx (ix2 r o)
      ((contrEquiv1 dot_S512x64_S1024x64_S512x1024_1_1_0_0_n_n 64 rfl rfl).symm d) = ix2 r d := by
  have hd := contrEquiv1_symm_val dot_S512x64_S1024x64_S512x1024_1_1_0_0_n_n 64 rfl rfl d
  funext a; apply Fin.ext
  match a with
  | ⟨0, _⟩ => exact lhs_0 _ _
  | ⟨1, _⟩ => exact (lhs_1 _ _).trans hd

/-- The right operand likewise is entry (o, d): both operands are contracted along their second axis. -/
theorem rhs_at (r : Fin 512) (o : Fin 1024) (d : Fin 64) :
    dot_S512x64_S1024x64_S512x1024_1_1_0_0_n_n.rhsIdx (ix2 r o)
      ((contrEquiv1 dot_S512x64_S1024x64_S512x1024_1_1_0_0_n_n 64 rfl rfl).symm d) = ix2 o d := by
  have hd := contrEquiv1_symm_val dot_S512x64_S1024x64_S512x1024_1_1_0_0_n_n 64 rfl rfl d
  funext a; apply Fin.ext
  match a with
  | ⟨0, _⟩ => exact rhs_0 _ _
  | ⟨1, _⟩ => exact (rhs_1 _ _).trans hd

/-- One product into a zero accumulator, read at (r, o): the sum over the 64 head coordinates of the left
    operand's row r against row o of the weight slab (rounding the weight to the narrower format is the
    identity over the extended reals). -/
theorem prod_apply (a : FVec Ideal S512x64 .bf16) (w : Vec Ideal S1x1024x64 .f32) (r : Fin 512) (o : Fin 1024) :
    matmul dot_S512x64_S1024x64_S512x1024_1_1_0_0_n_n none a
        (truncf .bf16 (shapeCast S1024x64 w shapeCasts_S1x1024x64_S1024x64 : FVec Ideal S1024x64 .f32) bitsLt_bf16_f32)
        (constant (F := Ideal) S512x1024 .f32 0x00000000#32) (ix2 r o)
      = ∑ d : Fin 64, a (ix2 r d) * w (ix3 0 o d) := by
  refine (Ideal.matmul_constant_zero_apply dot_S512x64_S1024x64_S512x1024_1_1_0_0_n_n none a _ (ix2 r o)).trans ?_
  rw [← Equiv.sum_comp (contrEquiv1 dot_S512x64_S1024x64_S512x1024_1_1_0_0_n_n 64 rfl rfl).symm]
  refine Finset.sum_congr rfl fun d _ => ?_
  rw [lhs_at r o d, rhs_at r o d]
  exact congrArg (a (ix2 r d) * ·) (cast_w w o d)

/-- One accumulation step at (r, o), the left operand already a matrix. -/
theorem step_mat (acc : FVec Ideal S512x1024 .f32) (a : FVec Ideal S512x64 .bf16) (w : Vec Ideal S1x1024x64 .f32)
    (r : Fin 512) (o : Fin 1024) :
    addf acc (matmul dot_S512x64_S1024x64_S512x1024_1_1_0_0_n_n none a
        (truncf .bf16 (shapeCast S1024x64 w shapeCasts_S1x1024x64_S1024x64 : FVec Ideal S1024x64 .f32) bitsLt_bf16_f32)
        (constant (F := Ideal) S512x1024 .f32 0x00000000#32)) (ix2 r o)
      = acc (ix2 r o) + ∑ d : Fin 64, a (ix2 r d) * w (ix3 0 o d) :=
  congrArg (acc (ix2 r o) + ·) (prod_apply a w r o)

/-- One accumulation step at (r, o) from the two loaded slabs. -/
theorem step (acc : FVec Ideal S512x1024 .f32) (a : Vec Ideal S1x512x64 .bf16) (w : Vec Ideal S1x1024x64 .f32)
    (r : Fin 512) (o : Fin 1024) :
    addf acc (matmul dot_S512x64_S1024x64_S512x1024_1_1_0_0_n_n none
        (shapeCast S512x64 a shapeCasts_S1x512x64_S512x64 : FVec Ideal S512x64 .bf16)
        (truncf .bf16 (shapeCast S1024x64 w shapeCasts_S1x1024x64_S1024x64 : FVec Ideal S1024x64 .f32) bitsLt_bf16_f32)
        (constant (F := Ideal) S512x1024 .f32 0x00000000#32)) (ix2 r o)
      = acc (ix2 r o) + ∑ d : Fin 64, a (ix3 0 r d) * w (ix3 0 o d) :=
  (step_mat acc _ w r o).trans
    (congrArg (acc (ix2 r o) + ·) (Finset.sum_congr rfl fun d _ => congrArg (· * w (ix3 0 o d)) (cast_a a r d)))

/-- The contribution of one head: row r of its attention slab against row o of its weight slab. -/
def term (a : Vec Ideal S1x512x64 .bf16) (w : Vec Ideal S1x1024x64 .f32) (r : Fin 512) (o : Fin 1024) : EReal :=
  ∑ d : Fin 64, a (ix3 0 r d) * w (ix3 0 o d)

theorem step' (acc : FVec Ideal S512x1024 .f32) (a : Vec Ideal S1x512x64 .bf16) (w : Vec Ideal S1x1024x64 .f32)
    (r : Fin 512) (o : Fin 1024) :
    addf acc (matmul dot_S512x64_S1024x64_S512x1024_1_1_0_0_n_n none
        (shapeCast S512x64 a shapeCasts_S1x512x64_S512x64 : FVec Ideal S512x64 .bf16)
        (truncf .bf16 (shapeCast S1024x64 w shapeCasts_S1x1024x64_S1024x64 : FVec Ideal S1024x64 .f32) bitsLt_bf16_f32)
        (constant (F := Ideal) S512x1024 .f32 0x00000000#32)) (ix2 r o)
      = acc (ix2 r o) + term a w r o := step acc a w r o

/-- The first four heads, accumulated from zero. -/
theorem pay2_apply (a0 : Vec Ideal S1x512x64 .bf16) (w0 : Vec Ideal S1x1024x64 .f32) (a1 : Vec Ideal S1x512x64 .bf16)
    (w1 : Vec Ideal S1x1024x64 .f32) (a2 : Vec Ideal S1x512x64 .bf16) (w2 : Vec Ideal S1x1024x64 .f32)
    (a3 : Vec Ideal S1x512x64 .bf16) (w3 : Vec Ideal S1x1024x64 .f32) (r : Fin 512) (o : Fin 1024) :
    k2_pay2 (F := Ideal) a0 w0 a1 w1 a2 w2 a3 w3 (ix2 r o)
      = 0 + term a0 w0 r o + term a1 w1 r o + term a2 w2 r o + term a3 w3 r o := by
  unfold k2_pay2
  refine (step' _ a3 w3 r o).trans (congrArg (· + term a3 w3 r o) ?_)
  refine (step' _ a2 w2 r o).trans (congrArg (· + term a2 w2 r o) ?_)
  refine (step' _ a1 w1 r o).trans (congrArg (· + term a1 w1 r o) ?_)
  refine (step' _ a0 w0 r o).trans (congrArg (· + term a0 w0 r o) ?_)
  exact Ideal.ofBits_zero_f32

/-- Four more heads onto an accumulator (heads 4 to 7). -/
theorem pay3_apply (acc : FVec Ideal S512x1024 .f32) (a0 : Vec Ideal S1x512x64 .bf16) (w0 : Vec Ideal S1x1024x64 .f32) (a1 : Vec Ideal S1x512x64 .bf16)
    (w1 : Vec Ideal S1x1024x64 .f32) (a2 : Vec Ideal S1x512x64 .bf16) (w2 : Vec Ideal S1x1024x64 .f32)
    (a3 : Vec Ideal S1x512x64 .bf16) (w3 : Vec Ideal S1x1024x64 .f32) (r : Fin 512) (o : Fin 1024) :
    k2_pay3 (F := Ideal) acc a0 w0 a1 w1 a2 w2 a3 w3 (ix2 r o)
      = acc (ix2 r o) + term a0 w0 r o + term a1 w1 r o + term a2 w2 r o + term a3 w3 r o := by
  unfold k2_pay3
  refine (step' _ a3 w3 r o).trans (congrArg (· + term a3 w3 r o) ?_)
  refine (step' _ a2 w2 r o).trans (congrArg (· + term a2 w2 r o) ?_)
  refine (step' _ a1 w1 r o).trans (congrArg (· + term a1 w1 r o) ?_)
  exact step' _ a0 w0 r o

/-- Four more heads onto an accumulator (heads 8 to 11). -/
theorem pay4_apply (acc : FVec Ideal S512x1024 .f32) (a0 : Vec Ideal S1x512x64 .bf16) (w0 : Vec Ideal S1x1024x64 .f32) (a1 : Vec Ideal S1x512x64 .bf16)
    (w1 : Vec Ideal S1x1024x64 .f32) (a2 : Vec Ideal S1x512x64 .bf16) (w2 : Vec Ideal S1x1024x64 .f32)
    (a3 : Vec Ideal S1x512x64 .bf16) (w3 : Vec Ideal S1x1024x64 .f32) (r : Fin 512) (o : Fin 1024) :
    k2_pay4 (F := Ideal) acc a0 w0 a1 w1 a2 w2 a3 w3 (ix2 r o)
      = acc (ix2 r o) + term a0 w0 r o + term a1 w1 r o + term a2 w2 r o + term a3 w3 r o := by
  unfold k2_pay4
  refine (step' _ a3 w3 r o).trans (congrArg (· + term a3 w3 r o) ?_)
  refine (step' _ a2 w2 r o).trans (congrArg (· + term a2 w2 r o) ?_)
  refine (step' _ a1 w1 r o).trans (congrArg (· + term a1 w1 r o) ?_)
  exact step' _ a0 w0 r o

/-- The last four heads (12 to 15); the first of them arrives with its unit axis already dropped. -/
theorem pay1_apply (acc : FVec Ideal S512x1024 .f32) (a0 : Vec Ideal S1x512x64 .bf16) (w0 : Vec Ideal S1x1024x64 .f32) (a1 : Vec Ideal S1x512x64 .bf16)
    (w1 : Vec Ideal S1x1024x64 .f32) (a2 : Vec Ideal S1x512x64 .bf16) (w2 : Vec Ideal S1x1024x64 .f32)
    (a3 : Vec Ideal S1x512x64 .bf16) (w3 : Vec Ideal S1x1024x64 .f32) (r : Fin 512) (o : Fin 1024) :
    k2_pay1 (F := Ideal) acc (k2_pay5 a0) w0 a1 w1 a2 w2 a3 w3 (ix2 r o)
      = acc (ix2 r o) + term a0 w0 r o + term a1 w1 r o + term a2 w2 r o + term a3 w3 r o := by
  unfold k2_pay1 k2_pay5
  refine (step' _ a3 w3 r o).trans (congrArg (· + term a3 w3 r o) ?_)
  refine (step' _ a2 w2 r o).trans (congrArg (· + term a2 w2 r o) ?_)
  refine (step' _ a1 w1 r o).trans (congrArg (· + term a1 w1 r o) ?_)
  exact step' _ a0 w0 r o

end Cert.KernelIdeal.R2

end
-- ==== Proof.Region2Blk.lean ====
/-
  The output projection's body at one entry of its [512, 1024] block: starting from zero, the sixteen accumulation
  steps leave at (r, o) the sum over the heads h of Σ_d a[h, r, d] · w[h, o, d] — addition of extended reals is
  associative and commutative with zero neutral, so the nested accumulation is the sum over the sixteen heads.
-/
import proofs.«145650_j50130858279276_2_alg».proof.Proof.Region2Pay

noncomputable section

namespace Cert.KernelIdeal.R2

open Idealize.ShloMosaic Idealize.ShloMosaic.TcCoe Idealize.SL.Sem Idealize.ShloMosaic.Pipeline Idealize.ShloMosaic.ValueIdx Cert.KernelIdeal Cert.KernelIdeal.Gen

/-- The contribution of head h at entry (r, o) of a block: row r of slab h of the attention block against
    row o of slab h of the weight. -/
def headSum (x0 : Vec Ideal S16x512x64 .bf16) (x1 : Vec Ideal S16x1024x64 .f32) (r : Fin 512) (o : Fin 1024)
    (h : Fin 16) : EReal :=
  ∑ d : Fin 64, x0 (ix3 h r d) * x1 (ix3 h o d)

/-- A load of one slab of the attention block, from slab offset h. -/
theorem ld_a (x0 : Vec Ideal S16x512x64 .bf16) (h : Fin 16) (off : Fin 3 → Nat)
    (inb : ∀ a, off a + S1x512x64.size a ≤ S16x512x64.size a)
    (h0 : off 0 = h.val) (h1 : off 1 = 0) (h2 : off 2 = 0) (r : Fin 512) (d : Fin 64) :
    View.ld x0 (Rect.unit (s := S16x512x64) off S1x512x64.size inb) (ix3 0 r d) = x0 (ix3 h r d) := by
  show x0 _ = x0 _
  refine congrArg x0 (funext fun a => Fin.ext ?_)
  match a with
  | ⟨0, _⟩ => show off 0 + 1 * 0 = h.val; omega
  | ⟨1, _⟩ => show off 1 + 1 * r.val = r.val; omega
  | ⟨2, _⟩ => show off 2 + 1 * d.val = d.val; omega

/-- A load of one slab of the weight, from slab offset h. -/
theorem ld_w (x1 : Vec Ideal S16x1024x64 .f32) (h : Fin 16) (off : Fin 3 → Nat)
    (inb : ∀ a, off a + S1x1024x64.size a ≤ S16x1024x64.size a)
    (h0 : off 0 = h.val) (h1 : off 1 = 0) (h2 : off 2 = 0) (o : Fin 1024) (d : Fin 64) :
    View.ld x1 (Rect.unit (s := S16x1024x64) off S1x1024x64.size inb) (ix3 0 o d) = x1 (ix3 h o d) := by
  show x1 _ = x1 _
  refine congrArg x1 (funext fun a => Fin.ext ?_)
  match a with
  | ⟨0, _⟩ => show off 0 + 1 * 0 = h.val; omega
  | ⟨1, _⟩ => show off 1 + 1 * o.val = o.val; omega
  | ⟨2, _⟩ => show off 2 + 1 * d.val = d.val; omega

/-- The term of two loaded slabs is the head's contribution. -/
theorem term_ld (x0 : Vec Ideal S16x512x64 .bf16) (x1 : Vec Ideal S16x1024x64 .f32) (h : Fin 16) (off : Fin 3 → Nat)
    (inba : ∀ a, off a + S1x512x64.size a ≤ S16x512x64.size a)
    (inbw : ∀ a, off a + S1x1024x64.size a ≤ S16x1024x64.size a)
    (h0 : off 0 = h.val) (h1 : off 1 = 0) (h2 : off 2 = 0) (r : Fin 512) (o : Fin 1024) :
    term (View.ld x0 (Rect.unit (s := S16x512x64) off S1x512x64.size inba))
        (View.ld x1 (Rect.unit (s := S16x1024x64) off S1x1024x64.size inbw)) r o = headSum x0 x1 r o h := by
  unfold term headSum
  refine Finset.sum_congr rfl fun d _ => ?_
  rw [ld_a x0 h off inba h0 h1 h2 r d, ld_w x1 h off inbw h0 h1 h2 o d]

/-- A sum over sixteen heads, spelt out from the left. -/
theorem sum16 (f : Fin 16 → EReal) :
    ∑ h : Fin 16, f h = 0 + f 0 + f 1 + f 2 + f 3 + f 4 + f 5 + f 6 + f 7 + f 8 + f 9 + f 10 + f 11 + f 12 + f 13
      + f 14 + f 15 := by
  simp only [Fin.sum_univ_castSucc, Fin.sum_univ_zero]
  rfl

theorem hz2 : (![0, 0] : Fin 2 → Nat) = fun _ => 0 := funext fun a => by fin_cases a <;> rfl

/-- What the body leaves in the output block, entry by entry: the sum over the sixteen heads. -/
theorem out_apply (x0 : Vec Ideal S16x512x64 .bf16) (x1 : Vec Ideal S16x1024x64 .f32) (r : Fin 512) (o : Fin 1024) :
    out2_2 (F := Ideal) x0 x1 (ix2 r o) = ∑ h : Fin 16, headSum x0 x1 r o h := by
  unfold out2_2
  rw [View.canon_unit_zero hz2]
  rw [pay1_apply, pay4_apply, pay3_apply, pay2_apply]
  rw [sum16]
  refine congrArg₂ (· + ·) ?_ (term_ld x0 x1 15 _ _ _ rfl rfl rfl r o)
  refine congrArg₂ (· + ·) ?_ (term_ld x0 x1 14 _ _ _ rfl rfl rfl r o)
  refine congrArg₂ (· + ·) ?_ (term_ld x0 x1 13 _ _ _ rfl rfl rfl r o)
  refine congrArg₂ (· + ·) ?_ (term_ld x0 x1 12 _ _ _ rfl rfl rfl r o)
  refine congrArg₂ (· + ·) ?_ (term_ld x0 x1 11 _ _ _ rfl rfl rfl r o)
  refine congrArg₂ (· + ·) ?_ (term_ld x0 x1 10 _ _ _ rfl rfl rfl r o)
  refine congrArg₂ (· + ·) ?_ (term_ld x0 x1 9 _ _ _ rfl rfl rfl r o)
  refine congrArg₂ (· + ·) ?_ (term_ld x0 x1 8 _ _ _ rfl rfl rfl r o)
  refine congrArg₂ (· + ·) ?_ (term_ld x0 x1 7 _ _ _ rfl rfl rfl r o)
  refine congrArg₂ (· + ·) ?_ (term_ld x0 x1 6 _ _ _ rfl rfl rfl r o)
  refine congrArg₂ (· + ·) ?_ (term_ld x0 x1 5 _ _ _ rfl rfl rfl r o)
  refine congrArg₂ (· + ·) ?_ (term_ld x0 x1 4 _ _ _ rfl rfl rfl r o)
  refine congrArg₂ (· + ·) ?_ (term_ld x0 x1 3 _ _ _ rfl rfl rfl r o)
  refine congrArg₂ (· + ·) ?_ (term_ld x0 x1 2 _ _ _ rfl rfl rfl r o)
  refine congrArg₂ (· + ·) ?_ (term_ld x0 x1 1 _ _ _ rfl rfl rfl r o)
  refine congrArg₂ (· + ·) rfl (term_ld x0 x1 0 _ _ _ rfl rfl rfl r o)

end Cert.KernelIdeal.R2

end
-- ==== Proof.Region2.lean ====
/-
  The output projection, from blocks to the array. Each of the 2 × 4 grid points (b, t) takes rows
  t·512 … t·512 + 511 of the sixteen heads of batch b of the attention array and the whole re-laid output weight, and
  writes the [512, 1024] block of rows (b·4 + t)·512 … of the [4096, 1024] output; the eight blocks tile it, so
  entry (b·2048 + s, o) ends as Σ_h Σ_d attention[16·b + h, s, d] · w[h, o, d].
-/
import proofs.«145650_j50130858279276_2_alg».proof.Proof.Region2Blk

noncomputable section

namespace Cert.KernelIdeal.R2

open Idealize.ShloMosaic Idealize.ShloMosaic.TcCoe Idealize.SL.Sem Idealize.ShloMosaic.Pipeline Idealize.ShloMosaic.ValueIdx Cert.KernelIdeal Cert.KernelIdeal.Gen

variable (V : (c : Dev nD) → (b : Ref sig .tc) → Buf (Elt Ideal) ((c : Thread nD τ).loc b))

/-! ## The index maps over the eight grid points -/

/-- Over the grid (b, t) : 2 × 4: the attention block is block (b, t, 0), the weight is taken whole, and the
    output block is block (b * 4 + t, 0). -/
theorem idx_facts : ∀ t : Fin cfg2.N,
    win2_0.index t (0 : Fin 3) * 4 + win2_0.index t (1 : Fin 3) = win2_2.index t (0 : Fin 2)
    ∧ win2_0.index t (0 : Fin 3) ≤ 1 ∧ win2_0.index t (1 : Fin 3) ≤ 3 ∧ win2_0.index t (2 : Fin 3) = 0
    ∧ win2_1.index t (0 : Fin 3) = 0 ∧ win2_1.index t (1 : Fin 3) = 0 ∧ win2_1.index t (2 : Fin 3) = 0
    ∧ win2_2.index t (1 : Fin 2) = 0 :=
  (by decide +kernel : ∀ t : Fin grid2.N, _)

/-- Each of the eight row blocks of the output is some point's. -/
theorem idx_onto : ∀ q : Fin 8, ∃ t : Fin cfg2.N, win2_2.index t = ![q.val, 0] :=
  (by decide +kernel : ∀ q : Fin 8, ∃ t : Fin grid2.N, win2_2.index t = ![q.val, 0])

/-! ## The output array as one function of the two input arrays -/

/-- The attention array and the re-laid output weight as the region finds them. -/
def attnArr (c : Dev nD) : S32x2048x64.Idx → EReal := V c main_v8
def woArr (c : Dev nD) : S16x1024x64.Idx → EReal := V c main_v10

/-- Entry (R, o) of the output: over the sixteen heads and the 64 head coordinates, the attention of row R's batch
    and position at that head against row o of the head's slab of the weight. -/
def outAt (c : Dev nD) (R : Fin 4096) (o : Fin 1024) : EReal :=
  ∑ h : Fin 16, ∑ d : Fin 64,
    attnArr V c (ix3 (⟨R.val / 2048 * 16 + h.val, by omega⟩ : Fin 32) (⟨R.val % 2048, by omega⟩ : Fin 2048) d)
      * woArr V c (ix3 h o d)

def outArr (c : Dev nD) : S4096x1024.Idx → EReal := fun i => outAt V c (i 0) (i 1)

/-! ## The input blocks, read off their arrays -/

/-- Entry (h, r, d) of the attention block at point t is the array at the block's offset plus (h, r, d). -/
theorem iblk0_apply (c : Dev nD) (t : Fin cfg2.N) (h : Fin 16) (r : Fin 512) (d : Fin 64) (k : S32x2048x64.Idx)
    (hk0 : (k 0).val = win2_0.index t (0 : Fin 3) * 16 + h.val)
    (hk1 : (k 1).val = win2_0.index t (1 : Fin 3) * 512 + r.val)
    (hk2 : (k 2).val = win2_0.index t (2 : Fin 3) * 64 + d.val) :
    (iblk2 V c 0 t : Vec Ideal S16x512x64 .bf16) (ix3 h r d) = attnArr V c k := by
  unfold iblk2 attnArr
  show V c main_v8 _ = V c main_v8 _
  congr 1
  funext a
  apply Fin.ext
  match a with
  | ⟨0, _⟩ => show win2_0.index t (0 : Fin 3) * 16 + 1 * h.val = (k 0).val; omega
  | ⟨1, _⟩ => show win2_0.index t (1 : Fin 3) * 512 + 1 * r.val = (k 1).val; omega
  | ⟨2, _⟩ => show win2_0.index t (2 : Fin 3) * 64 + 1 * d.val = (k 2).val; omega

/-- Entry (h, o, d) of the weight block at point t likewise. -/
theorem iblk1_apply (c : Dev nD) (t : Fin cfg2.N) (h : Fin 16) (o : Fin 1024) (d : Fin 64) (k : S16x1024x64.Idx)
    (hk0 : (k 0).val = win2_1.index t (0 : Fin 3) * 16 + h.val)
    (hk1 : (k 1).val = win2_1.index t (1 : Fin 3) * 1024 + o.val)
    (hk2 : (k 2).val = win2_1.index t (2 : Fin 3) * 64 + d.val) :
    (iblk2 V c 1 t : Vec Ideal S16x1024x64 .f32) (ix3 h o d) = woArr V c k := by
  unfold iblk2 woArr
  show V c main_v10 _ = V c main_v10 _
  congr 1
  funext a
  apply Fin.ext
  match a with
  | ⟨0, _⟩ => show win2_1.index t (0 : Fin 3) * 16 + 1 * h.val = (k 0).val; omega
  | ⟨1, _⟩ => show win2_1.index t (1 : Fin 3) * 1024 + 1 * o.val = (k 1).val; omega
  | ⟨2, _⟩ => show win2_1.index t (2 : Fin 3) * 64 + 1 * d.val = (k 2).val; omega

/-! ## What a point writes back is its block of the output function -/

/-- Entry (r, o) of what point t leaves in the output's buffer is the output function at the block's offset plus (r, o). -/
theorem blk_apply (c : Dev nD) (t : Fin cfg2.N) (r : Fin 512) (o : Fin 1024) :
    out2_2 (F := Ideal) (iblk2 V c 0 t) (iblk2 V c 1 t) (ix2 r o)
      = outArr V c (((cfg2.win 2).blk t).view.emb (ix2 r o)) := by
  obtain ⟨e0, e1, e2, e3, e4, e5, e6, e7⟩ := idx_facts t
  refine (out_apply (iblk2 V c 0 t) (iblk2 V c 1 t) r o).trans ?_
  unfold outArr outAt headSum
  refine Finset.sum_congr rfl fun h _ => Finset.sum_congr rfl fun d _ => ?_
  have hr : r.val < 512 := r.isLt
  have ho : o.val < 1024 := o.isLt
  refine congrArg₂ (· * ·) (iblk0_apply V c t h r d _ ?_ ?_ ?_) (iblk1_apply V c t h o d _ ?_ ?_ ?_)
  · show (win2_2.index t (0 : Fin 2) * 512 + 1 * r.val) / 2048 * 16 + h.val = win2_0.index t (0 : Fin 3) * 16 + h.val
    omega
  · show (win2_2.index t (0 : Fin 2) * 512 + 1 * r.val) % 2048 = win2_0.index t (1 : Fin 3) * 512 + r.val
    omega
  · show d.val = win2_0.index t (2 : Fin 3) * 64 + d.val
    omega
  · show h.val = win2_1.index t (0 : Fin 3) * 16 + h.val
    omega
  · show win2_2.index t (1 : Fin 2) * 1024 + 1 * o.val = win2_1.index t (1 : Fin 3) * 1024 + o.val
    omega
  · show d.val = win2_1.index t (2 : Fin 3) * 64 + d.val
    omega

/-- What point t writes back is block t of the output function. -/
theorem flushed_eq (c : Dev nD) (t : Fin cfg2.N) :
    (dat2 (F := Ideal) V c).flushed 2 t = ((cfg2.win 2).blk t).view.read (Elt Ideal) (outArr V c) := by
  show (cfg2.win 2).cut (grid2.coords t) ((dat2 (F := Ideal) V c).after 2 t) = _
  rw [after2_2]
  funext j
  obtain ⟨r, o, rfl⟩ : ∃ (r : Fin 512) (o : Fin 1024), j = ix2 r o := ⟨j 0, j 1, eq_ix2 j⟩
  exact blk_apply V c t r o

/-! ## The blocks cover the array -/

/-- An index of the array is in point t's block iff each coordinate is in the block's range on its axis. -/
theorem mem_blk (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v11).slice (win2_2.rect t)).set ↔ _
  rw [View.set_slice_whole, Rect.mem_set_unit]
  exact Iff.rfl

/-- Row R of the array is in the block of the point whose block index is R / 512. -/
theorem cover (i : S4096x1024.Idx) :
    ∃ t : Fin cfg2.N, (cfg2.win 2).flush t = true ∧ i ∈ ((cfg2.win 2).blk t).view.set := by
  have hi0 : (i 0).val < 4096 := idx2_lt0 i
  have hi1 : (i 1).val < 1024 := idx2_lt1 i
  obtain ⟨t, ht⟩ := idx_onto ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region is the output function. -/
theorem final (c : Dev nD) : (dat2 (F := Ideal) V c).arrAt 2 cfg2.N = outArr V c :=
  (dat2 (F := Ideal) V c).arrAt_eq_of_cover 2 (outArr V c) (fun t _ => flushed_eq V c t) cover

/-! ## The statement over batch, position and output feature -/

/-- The output function at row (b, s): its batch is b and its position s, so head h of that row is head (b, h). -/
theorem outAt_row (c : Dev nD) (b : Fin 2) (s : Fin 2048) (o : Fin 1024) :
    outAt V c (Cert.Spec.row b s) o
      = ∑ h : Fin 16, ∑ d : Fin 64, attnArr V c (ix3 (Cert.Spec.head b h) s d) * woArr V c (ix3 h o d) := by
  unfold outAt
  refine Finset.sum_congr rfl fun h _ => Finset.sum_congr rfl fun d _ => ?_
  have hs : s.val < 2048 := s.isLt
  have hb : b.val < 2 := b.isLt
  refine congrArg (fun k => attnArr V c k * woArr V c (ix3 h o d)) (funext fun a => ?_)
  match a with
  | ⟨0, _⟩ => exact Fin.ext (by show (b.val * 2048 + s.val) / 2048 * 16 + h.val = b.val * 16 + h.val; omega)
  | ⟨1, _⟩ => exact Fin.ext (by show (b.val * 2048 + s.val) % 2048 = s.val; omega)
  | ⟨2, _⟩ => rfl

/-- The output array after the region, typed as a function of its two coordinates. -/
def outFinal (c : Dev nD) : S4096x1024.Idx → EReal := (dat2 (F := Ideal) V c).arrAt 2 cfg2.N

theorem outFinal_eq (c : Dev nD) : (dat2 (F := Ideal) V c).arrAt 2 cfg2.N = outFinal V c := rfl
theorem attnArr_eq (c : Dev nD) : V c main_v8 = attnArr V c := rfl
theorem woArr_eq (c : Dev nD) : V c main_v10 = woArr V c := rfl

/-- After the region, entry (row (b, s), o) of the output array is the sum over heads and head coordinates of the
    attention array at (head (b, h), s, d) times the re-laid output weight at (h, o, d). -/
theorem out_value (c : Dev nD) (b : Fin 2) (s : Fin 2048) (o : Fin 1024) :
    outFinal V c (ix2 (Cert.Spec.row b s) o)
      = ∑ h : Fin 16, ∑ d : Fin 64, attnArr V c (ix3 (Cert.Spec.head b h) s d) * woArr V c (ix3 h o d) := by
  unfold outFinal
  rw [final V c]
  exact outAt_row V c b s o

/-- The same with the two input arrays named by the caller. -/
theorem out_value_of (c : Dev nD) (A : S32x2048x64.Idx → EReal) (W : S16x1024x64.Idx → EReal)
    (hA : V c main_v8 = A) (hW : V c main_v10 = W) (b : Fin 2) (s : Fin 2048) (o : Fin 1024) :
    outFinal V c (ix2 (Cert.Spec.row b s) o)
      = ∑ h : Fin 16, ∑ d : Fin 64, A (ix3 (Cert.Spec.head b h) s d) * W (ix3 h o d) := by
  subst hA hW
  exact out_value V c b s o

/-- The same spelt on the region-entry contents themselves (the products and the equation taken in the extended reals). -/
theorem out_value_raw (c : Dev nD) (b : Fin 2) (s : Fin 2048) (o : Fin 1024) :
    @Eq EReal ((dat2 (F := Ideal) V c).arrAt 2 cfg2.N (ix2 (Cert.Spec.row b s) o))
      (∑ h : Fin 16, ∑ d : Fin 64, @HMul.hMul EReal EReal EReal _ (V c main_v8 (ix3 (Cert.Spec.head b h) s d)) (V c main_v10 (ix3 h o d))) :=
  out_value V c b s o

end Cert.KernelIdeal.R2

end
-- ==== Proof.KernelValue.lean ====
/-
  The idealized kernel's result as one function of its arguments.

  Following the contents through @main: the flattened activations and the three head-major weight thirds enter the
  first region, whose outputs are the projections q, k, v of the specification; the second region turns them into the
  attention (value product divided by the row sum); the third region contracts the attention with the output weight
  re-laid by head, summing over heads and head coordinates; the last host operation un-flattens the rows. So entry
  (b, s, o) of the result is the specification's `kerOut` of the three argument arrays.
-/
import proofs.«145650_j50130858279276_2_alg».proof.Proof.Glue
import proofs.«145650_j50130858279276_2_alg».proof.Proof.Region0
import proofs.«145650_j50130858279276_2_alg».proof.Proof.Region1
import proofs.«145650_j50130858279276_2_alg».proof.Proof.Region2

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- The three argument arrays read by coordinates. -/
abbrev actOf (c : Dev nD) : Act := fun b s k => m ((c : Thread nD τ).loc main_arg0) (ix3 b s k)
abbrev wOf (c : Dev nD) : Fin 3072 → Fin 1024 → EReal := fun r k => m ((c : Thread nD τ).loc main_arg1) (ix2 r k)
abbrev woOf (c : Dev nD) : Fin 1024 → Fin 1024 → EReal := fun o j => m ((c : Thread nD τ).loc main_arg2) (ix2 o j)

/-- The first region's outputs are the three projections. -/
theorem q_eq (c : Dev nD) :
    (fun (b : Fin 2) (h : Fin 16) (s : Fin 2048) (d : Fin 64) => V2 m ρ c main_v7_0 (ix3 (head b h) s d))
      = qkv (actOf m c) (wOf m c) 0 := by
  funext b h s d
  show @Eq EReal (V2 m ρ c main_v7_0 (ix3 (head b h) s d)) _
  rw [Glue.q_arr, R0.q_value]
  unfold qkv
  exact Finset.sum_congr rfl fun k _ => by rw [Glue.v0_apply, Glue.v2_apply]
theorem k_eq (c : Dev nD) :
    (fun (b : Fin 2) (h : Fin 16) (s : Fin 2048) (d : Fin 64) => V2 m ρ c main_v7_1 (ix3 (head b h) s d))
      = qkv (actOf m c) (wOf m c) 1 := by
  funext b h s d
  show @Eq EReal (V2 m ρ c main_v7_1 (ix3 (head b h) s d)) _
  rw [Glue.k_arr, R0.k_value]
  unfold qkv
  exact Finset.sum_congr rfl fun k _ => by rw [Glue.v0_apply, Glue.v4_apply]
theorem v_eq (c : Dev nD) :
    (fun (b : Fin 2) (h : Fin 16) (s : Fin 2048) (d : Fin 64) => V2 m ρ c main_v7_2 (ix3 (head b h) s d))
      = qkv (actOf m c) (wOf m c) 2 := by
  funext b h s d
  show @Eq EReal (V2 m ρ c main_v7_2 (ix3 (head b h) s d)) _
  rw [Glue.v_arr, R0.v_value]
  unfold qkv
  exact Finset.sum_congr rfl fun k _ => by rw [Glue.v0_apply, Glue.v6_apply]

/-- THE RESULT: entry (b, s, o) of what the last boundary holds at the result buffer. -/
theorem kernel_value (c : Dev nD) (b : Fin 2) (s : Fin 2048) (o : Fin 1024) :
    W6 m ρ c (Proc.devRef .tc main_v12) (ix3 b s o) = kerOut (actOf m c) (wOf m c) (woOf m c) b s o := by
  show @Eq EReal (W6 m ρ c (Proc.devRef .tc main_v12) (ix3 b s o)) _
  rw [Glue.v12_apply, R2.out_value_raw]
  unfold kerOut
  refine Finset.sum_congr rfl fun h _ => Finset.sum_congr rfl fun d _ => ?_
  rw [Glue.v10_apply, Glue.a_arr, R1.attn_value, q_eq, k_eq, v_eq]

end Cert.KernelIdeal.KValue

end
-- ==== Proof.RefIdx.lean ====
/-
  The index functions of the reference's layout operations, at indices given by their coordinates.

  A transpose swaps coordinates; a reshape sends an index to the index with the same row-major position, which at
  these literal extents is a statement about quotients and remainders; a slice adds its offset; a contraction reads
  its operands at the output's coordinates with the contraction coordinate inserted.
-/
import proofs.«145650_j50130858279276_2_alg».proof.Proof.Gen.ReferenceIdeal.Read
import proofs.«145650_j50130858279276_2_alg».proof.Proof.Spec

noncomputable section

namespace Cert.RefValue

open Cert.ReferenceIdeal Cert.ReferenceIdeal.Gen Cert.ReferenceIdeal.Read Idealize.ShloMosaic Idealize.ShloMosaic.ValueIdx Cert.Spec

theorem tr_v4 (b : Fin 2) (h : Fin 16) (s : Fin 2048) (d : Fin 64) : idx_main_v4 (ix4 b h s d) = ix4 b s h d :=
  funext fun a => Fin.ext (by match a with | ⟨0, _⟩ => rfl | ⟨1, _⟩ => rfl | ⟨2, _⟩ => rfl | ⟨3, _⟩ => rfl)

theorem tr_v7 (b : Fin 2) (h : Fin 16) (s : Fin 2048) (d : Fin 64) : idx_main_v7 (ix4 b h s d) = ix4 b s h d :=
  funext fun a => Fin.ext (by match a with | ⟨0, _⟩ => rfl | ⟨1, _⟩ => rfl | ⟨2, _⟩ => rfl | ⟨3, _⟩ => rfl)

theorem tr_v10 (b : Fin 2) (h : Fin 16) (s : Fin 2048) (d : Fin 64) : idx_main_v10 (ix4 b h s d) = ix4 b s h d :=
  funext fun a => Fin.ext (by match a with | ⟨0, _⟩ => rfl | ⟨1, _⟩ => rfl | ⟨2, _⟩ => rfl | ⟨3, _⟩ => rfl)

theorem rs_v3 (b : Fin 2) (s : Fin 2048) (h : Fin 16) (d : Fin 64) : idx_main_v3 (ix4 b s h d) = ix5 b s (0 : Fin 1) h d :=
  funext fun a => Fin.ext (by
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
    | ⟨3, _⟩ => show (((b.val * 2048 + s.val) * 16 + h.val) * 64 + d.val) / 64 % 16 = h.val; omega
    | ⟨4, _⟩ => show (((b.val * 2048 + s.val) * 16 + h.val) * 64 + d.val) % 64 = d.val; omega)

theorem rs_v6 (b : Fin 2) (s : Fin 2048) (h : Fin 16) (d : Fin 64) : idx_main_v6 (ix4 b s h d) = ix5 b s (0 : Fin 1) h d :=
  funext fun a => Fin.ext (by
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
    | ⟨3, _⟩ => show (((b.val * 2048 + s.val) * 16 + h.val) * 64 + d.val) / 64 % 16 = h.val; omega
    | ⟨4, _⟩ => show (((b.val * 2048 + s.val) * 16 + h.val) * 64 + d.val) % 64 = d.val; omega)

theorem rs_v9 (b : Fin 2) (s : Fin 2048) (h : Fin 16) (d : Fin 64) : idx_main_v9 (ix4 b s h d) = ix5 b s (0 : Fin 1) h d :=
  funext fun a => Fin.ext (by
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
    | ⟨3, _⟩ => show (((b.val * 2048 + s.val) * 16 + h.val) * 64 + d.val) / 64 % 16 = h.val; omega
    | ⟨4, _⟩ => show (((b.val * 2048 + s.val) * 16 + h.val) * 64 + d.val) % 64 = d.val; omega)

theorem sl_v2 (b : Fin 2) (s : Fin 2048) (h : Fin 16) (d : Fin 64) : idx_main_v2 (ix5 b s (0 : Fin 1) h d) = ix5 b s (0 : Fin 3) h d :=
  funext fun a => Fin.ext (by match a with | ⟨0, _⟩ => rfl | ⟨1, _⟩ => rfl | ⟨2, _⟩ => rfl | ⟨3, _⟩ => rfl | ⟨4, _⟩ => rfl)

theorem sl_v5 (b : Fin 2) (s : Fin 2048) (h : Fin 16) (d : Fin 64) : idx_main_v5 (ix5 b s (0 : Fin 1) h d) = ix5 b s (1 : Fin 3) h d :=
  funext fun a => Fin.ext (by match a with | ⟨0, _⟩ => rfl | ⟨1, _⟩ => rfl | ⟨2, _⟩ => rfl | ⟨3, _⟩ => rfl | ⟨4, _⟩ => rfl)

theorem sl_v8 (b : Fin 2) (s : Fin 2048) (h : Fin 16) (d : Fin 64) : idx_main_v8 (ix5 b s (0 : Fin 1) h d) = ix5 b s (2 : Fin 3) h d :=
  funext fun a => Fin.ext (by match a with | ⟨0, _⟩ => rfl | ⟨1, _⟩ => rfl | ⟨2, _⟩ => rfl | ⟨3, _⟩ => rfl | ⟨4, _⟩ => rfl)

/-- Position (b, s, j, h, d) of the five-axis view is row j · 1024 + h · 64 + d of the fused projection. -/
theorem rs_v1 (b : Fin 2) (s : Fin 2048) (j : Fin 3) (h : Fin 16) (d : Fin 64) : idx_main_v1 (ix5 b s j h d) = ix3 b s (wrow j h d) :=
  funext fun a => Fin.ext (by
    match a with
    | ⟨0, _⟩ => show ((((b.val * 2048 + s.val) * 3 + j.val) * 16 + h.val) * 64 + d.val) / 6291456 = b.val; omega
    | ⟨1, _⟩ => show ((((b.val * 2048 + s.val) * 3 + j.val) * 16 + h.val) * 64 + d.val) / 3072 % 2048 = s.val; omega
    | ⟨2, _⟩ => show ((((b.val * 2048 + s.val) * 3 + j.val) * 16 + h.val) * 64 + d.val) % 3072 = j.val * 1024 + h.val * 64 + d.val; omega)

theorem l_v0 (b : Fin 2) (s : Fin 2048) (r : Fin 3072) (k : Fin 1024) : lidx_main_v0 (ix3 b s r) k = ix3 b s k :=
  funext fun a => Fin.ext (by match a with | ⟨0, _⟩ => rfl | ⟨1, _⟩ => rfl | ⟨2, _⟩ => rfl)

theorem r_v0 (b : Fin 2) (s : Fin 2048) (r : Fin 3072) (k : Fin 1024) : ridx_main_v0 (ix3 b s r) k = ix2 r k :=
  funext fun a => Fin.ext (by match a with | ⟨0, _⟩ => rfl | ⟨1, _⟩ => rfl)

theorem l_v11 (b : Fin 2) (h : Fin 16) (s t : Fin 2048) (d : Fin 64) : lidx_main_v11 (ix4 b h s t) d = ix4 b h s d :=
  funext fun a => Fin.ext (by match a with | ⟨0, _⟩ => rfl | ⟨1, _⟩ => rfl | ⟨2, _⟩ => rfl | ⟨3, _⟩ => rfl)

theorem r_v11 (b : Fin 2) (h : Fin 16) (s t : Fin 2048) (d : Fin 64) : ridx_main_v11 (ix4 b h s t) d = ix4 b h t d :=
  funext fun a => Fin.ext (by match a with | ⟨0, _⟩ => rfl | ⟨1, _⟩ => rfl | ⟨2, _⟩ => rfl | ⟨3, _⟩ => rfl)

theorem bc_v18 (b : Fin 2) (h : Fin 16) (s t : Fin 2048) : idx_main_v18 (ix4 b h s t) = ix4 b h s (0 : Fin 1) :=
  funext fun a => Fin.ext (by match a with | ⟨0, _⟩ => rfl | ⟨1, _⟩ => rfl | ⟨2, _⟩ => rfl | ⟨3, _⟩ => rfl)

theorem bc_v23 (b : Fin 2) (h : Fin 16) (s t : Fin 2048) : idx_main_v23 (ix4 b h s t) = ix4 b h s (0 : Fin 1) :=
  funext fun a => Fin.ext (by match a with | ⟨0, _⟩ => rfl | ⟨1, _⟩ => rfl | ⟨2, _⟩ => rfl | ⟨3, _⟩ => rfl)

theorem bc_v17 (b : Fin 2) (h : Fin 16) (s : Fin 2048) : idx_main_v17 (ix4 b h s (0 : Fin 1)) = ix3 b h s :=
  funext fun a => Fin.ext (by match a with | ⟨0, _⟩ => rfl | ⟨1, _⟩ => rfl | ⟨2, _⟩ => rfl)

theorem bc_v22 (b : Fin 2) (h : Fin 16) (s : Fin 2048) : idx_main_v22 (ix4 b h s (0 : Fin 1)) = ix3 b h s :=
  funext fun a => Fin.ext (by match a with | ⟨0, _⟩ => rfl | ⟨1, _⟩ => rfl | ⟨2, _⟩ => rfl)

theorem i_v21 (b : Fin 2) (h : Fin 16) (s t : Fin 2048) : idx_main_v21 (ix3 b h s) t = ix4 b h s t :=
  funext fun a => Fin.ext (by match a with | ⟨0, _⟩ => rfl | ⟨1, _⟩ => rfl | ⟨2, _⟩ => rfl | ⟨3, _⟩ => rfl)

/-- The index over (b, h, s) with coordinate t inserted on the reduced axis. -/
theorem lift_eq (hR : S2x16x2048x2048.Reduces [3] S2x16x2048) (b : Fin 2) (h : Fin 16) (s t : Fin 2048) :
    hR.lift (ix3 b h s) t = ix4 b h s t :=
  funext fun a => Fin.ext (by match a with | ⟨0, _⟩ => rfl | ⟨1, _⟩ => rfl | ⟨2, _⟩ => rfl | ⟨3, _⟩ => rfl)

theorem l_v25 (b : Fin 2) (h : Fin 16) (s : Fin 2048) (d : Fin 64) (t : Fin 2048) : lidx_main_v25 (ix4 b h s d) t = ix4 b h s t :=
  funext fun a => Fin.ext (by match a with | ⟨0, _⟩ => rfl | ⟨1, _⟩ => rfl | ⟨2, _⟩ => rfl | ⟨3, _⟩ => rfl)

theorem r_v25 (b : Fin 2) (h : Fin 16) (s : Fin 2048) (d : Fin 64) (t : Fin 2048) : ridx_main_v25 (ix4 b h s d) t = ix4 b h t d :=
  funext fun a => Fin.ext (by match a with | ⟨0, _⟩ => rfl | ⟨1, _⟩ => rfl | ⟨2, _⟩ => rfl | ⟨3, _⟩ => rfl)

theorem tr_v26 (b : Fin 2) (s : Fin 2048) (h : Fin 16) (d : Fin 64) : idx_main_v26 (ix4 b s h d) = ix4 b h s d :=
  funext fun a => Fin.ext (by match a with | ⟨0, _⟩ => rfl | ⟨1, _⟩ => rfl | ⟨2, _⟩ => rfl | ⟨3, _⟩ => rfl)

/-- Merged column j of position (b, s) is coordinate j % 64 of head j / 64. -/
theorem rs_v27 (b : Fin 2) (s : Fin 2048) (j : Fin 1024) (p : j.val / 64 < 16) (p' : j.val % 64 < 64) :
    idx_main_v27 (ix3 b s j) = ix4 b s (⟨j.val / 64, p⟩ : Fin 16) (⟨j.val % 64, p'⟩ : Fin 64) :=
  funext fun a => Fin.ext (by
    match a with
    | ⟨0, _⟩ => show ((b.val * 2048 + s.val) * 1024 + j.val) / 2097152 = b.val; omega
    | ⟨1, _⟩ => show ((b.val * 2048 + s.val) * 1024 + j.val) / 1024 % 2048 = s.val; omega
    | ⟨2, _⟩ => show ((b.val * 2048 + s.val) * 1024 + j.val) / 64 % 16 = j.val / 64; omega
    | ⟨3, _⟩ => show ((b.val * 2048 + s.val) * 1024 + j.val) % 64 = j.val % 64; omega)

theorem l_v28 (b : Fin 2) (s : Fin 2048) (o j : Fin 1024) : lidx_main_v28 (ix3 b s o) j = ix3 b s j :=
  funext fun a => Fin.ext (by match a with | ⟨0, _⟩ => rfl | ⟨1, _⟩ => rfl | ⟨2, _⟩ => rfl)

theorem r_v28 (b : Fin 2) (s : Fin 2048) (o j : Fin 1024) : ridx_main_v28 (ix3 b s o) j = ix2 o j :=
  funext fun a => Fin.ext (by match a with | ⟨0, _⟩ => rfl | ⟨1, _⟩ => rfl)

end Cert.RefValue

end
-- ==== Proof.RefValue.lean ====
/-
  The reference program's value, index by index.

  Each stage of the reference, read at an index given by its coordinates, is the corresponding function of the
  specification: the three projections, the scaled score, the row maximum (a fold of max from −∞, followed by a
  further max with −∞ that changes nothing), the unnormalised probability, the row sum (0 plus a sum), the
  probability divided by the row sum, the value product, the merge of the heads, and the output product.
-/
import proofs.«145650_j50130858279276_2_alg».proof.Proof.Gen.ReferenceIdeal.Read
import proofs.«145650_j50130858279276_2_alg».proof.Proof.Spec
import proofs.«145650_j50130858279276_2_alg».proof.Proof.RefIdx

noncomputable section

namespace Cert.RefValue

open Cert.ReferenceIdeal Cert.ReferenceIdeal.Gen Cert.ReferenceIdeal.Read Idealize.ShloMosaic Idealize.ShloMosaic.ValueIdx Cert.Spec

section Stages

variable (x0 : (⟨S2x2048x1024, .f32⟩ : BufTy).Contents (Elt Ideal)) (x1 : (⟨S3072x1024, .f32⟩ : BufTy).Contents (Elt Ideal))

/-- The activations and the fused projection weight as functions of coordinates. -/
abbrev actOf : Act := fun b s k => x0 (ix3 b s k)
abbrev wOf : Fin 3072 → Fin 1024 → EReal := fun r k => x1 (ix2 r k)

/-- The fused projection at (b, s, row j · 1024 + h · 64 + d). -/
theorem v0_read (b : Fin 2) (s : Fin 2048) (j : Fin 3) (h : Fin 16) (d : Fin 64) :
    val_main_v0 (F := Ideal) x0 x1 (ix3 b s (wrow j h d)) = qkv (actOf x0) (wOf x1) j b h s d := by
  rw [val_main_v0_apply]
  show _ = ∑ k : Fin 1024, x0 (ix3 b s k) * x1 (ix2 (wrow j h d) k)
  exact Finset.sum_congr rfl fun k _ => by rw [l_v0, r_v0]

/-- The queries. -/
theorem v4_read (b : Fin 2) (h : Fin 16) (s : Fin 2048) (d : Fin 64) :
    val_main_v4 (F := Ideal) x0 x1 (ix4 b h s d) = qkv (actOf x0) (wOf x1) 0 b h s d := by
  rw [val_main_v4_apply, tr_v4, val_main_v3_apply, rs_v3, val_main_v2_apply, sl_v2, val_main_v1_apply, rs_v1, v0_read]

/-- The keys. -/
theorem v7_read (b : Fin 2) (h : Fin 16) (s : Fin 2048) (d : Fin 64) :
    val_main_v7 (F := Ideal) x0 x1 (ix4 b h s d) = qkv (actOf x0) (wOf x1) 1 b h s d := by
  rw [val_main_v7_apply, tr_v7, val_main_v6_apply, rs_v6, val_main_v5_apply, sl_v5, val_main_v1_apply, rs_v1, v0_read]

/-- The values. -/
theorem v10_read (b : Fin 2) (h : Fin 16) (s : Fin 2048) (d : Fin 64) :
    val_main_v10 (F := Ideal) x0 x1 (ix4 b h s d) = qkv (actOf x0) (wOf x1) 2 b h s d := by
  rw [val_main_v10_apply, tr_v10, val_main_v9_apply, rs_v9, val_main_v8_apply, sl_v8, val_main_v1_apply, rs_v1, v0_read]

/-- The scaled score. -/
theorem v13_read (b : Fin 2) (h : Fin 16) (s t : Fin 2048) :
    val_main_v13 (F := Ideal) x0 x1 (ix4 b h s t)
      = score (qkv (actOf x0) (wOf x1) 0) (qkv (actOf x0) (wOf x1) 1) b h s t := by
  rw [val_main_v13_apply, val_main_v11_apply, val_main_v12_apply, val_main_cst_apply]
  show (∑ d : Fin 64, val_main_v4 (F := Ideal) x0 x1 (lidx_main_v11 (ix4 b h s t) d)
      * val_main_v7 (F := Ideal) x0 x1 (ridx_main_v11 (ix4 b h s t) d)) * scale
    = (∑ d : Fin 64, qkv (actOf x0) (wOf x1) 0 b h s d * qkv (actOf x0) (wOf x1) 1 b h t d) * scale
  exact congrArg (· * scale) (Finset.sum_congr rfl fun d _ => by rw [l_v11, r_v11, v4_read, v7_read])

/-- The fold of max from −∞ over the key positions. -/
theorem v14_read (b : Fin 2) (h : Fin 16) (s : Fin 2048) :
    val_main_v14 (F := Ideal) x0 x1 (ix3 b h s)
      = rowMax (qkv (actOf x0) (wOf x1) 0) (qkv (actOf x0) (wOf x1) 1) b h s := by
  have hR : S2x16x2048x2048.Reduces [3] S2x16x2048 := by decide
  refine (Host.reduce_eq_fold_single (FloatOps.maximumf (F := Ideal) (φ := .f32)) (val_main_v13 (F := Ideal) x0 x1)
    (val_main_cst_0 (F := Ideal)) reducesTo_S2x16x2048x2048_S2x16x2048_d3 hR h_S_ (ix3 b h s)).trans ?_
  show (Finset.univ : Finset (Fin 2048)).fold max negInf (val_main_v13 (F := Ideal) x0 x1 ∘ hR.lift (ix3 b h s))
    = (Finset.univ : Finset (Fin 2048)).fold max negInf
        (fun t => score (qkv (actOf x0) (wOf x1) 0) (qkv (actOf x0) (wOf x1) 1) b h s t)
  exact Finset.fold_congr fun t _ =>
    (congrArg (val_main_v13 (F := Ideal) x0 x1) (lift_eq hR b h s t)).trans (v13_read x0 x1 b h s t)

/-- The further max with −∞ changes nothing: −∞ is where the fold starts. -/
theorem v16_read (b : Fin 2) (h : Fin 16) (s : Fin 2048) :
    val_main_v16 (F := Ideal) x0 x1 (ix3 b h s)
      = rowMax (qkv (actOf x0) (wOf x1) 0) (qkv (actOf x0) (wOf x1) 1) b h s := by
  rw [val_main_v16_apply, val_main_v15_apply, val_main_cst_1_apply, v14_read]
  show max negInf (rowMax (qkv (actOf x0) (wOf x1) 0) (qkv (actOf x0) (wOf x1) 1) b h s) = _
  exact max_eq_right ((Finset.le_fold_max _).2 (Or.inl le_rfl))

/-- The row maximum, broadcast along the key positions. -/
theorem v18_read (b : Fin 2) (h : Fin 16) (s t : Fin 2048) :
    val_main_v18 (F := Ideal) x0 x1 (ix4 b h s t)
      = rowMax (qkv (actOf x0) (wOf x1) 0) (qkv (actOf x0) (wOf x1) 1) b h s := by
  rw [val_main_v18_apply, bc_v18, val_main_v17_apply, bc_v17, v16_read]

/-- The unnormalised probability. -/
theorem v20_read (b : Fin 2) (h : Fin 16) (s t : Fin 2048) :
    val_main_v20 (F := Ideal) x0 x1 (ix4 b h s t)
      = prob (qkv (actOf x0) (wOf x1) 0) (qkv (actOf x0) (wOf x1) 1) b h s t := by
  rw [val_main_v20_apply, val_main_v19_apply, v13_read, v18_read]
  rfl

/-- The row sum: zero plus the sum over the key positions. -/
theorem v21_read (b : Fin 2) (h : Fin 16) (s : Fin 2048) :
    val_main_v21 (F := Ideal) x0 x1 (ix3 b h s)
      = rowSum (qkv (actOf x0) (wOf x1) 0) (qkv (actOf x0) (wOf x1) 1) b h s := by
  rw [val_main_v21_apply, val_main_cst_2_apply]
  show Ideal.ofBits .f32 0x00000000#32 + _ = _
  rw [Ideal.ofBits_zero_f32, zero_add]
  show _ = ∑ t : Fin 2048, prob (qkv (actOf x0) (wOf x1) 0) (qkv (actOf x0) (wOf x1) 1) b h s t
  exact Finset.sum_congr rfl fun t _ => by rw [i_v21, v20_read]

/-- The row sum, broadcast along the key positions. -/
theorem v23_read (b : Fin 2) (h : Fin 16) (s t : Fin 2048) :
    val_main_v23 (F := Ideal) x0 x1 (ix4 b h s t)
      = rowSum (qkv (actOf x0) (wOf x1) 0) (qkv (actOf x0) (wOf x1) 1) b h s := by
  rw [val_main_v23_apply, bc_v23, val_main_v22_apply, bc_v22, v21_read]

/-- The probability. -/
theorem v24_read (b : Fin 2) (h : Fin 16) (s t : Fin 2048) :
    val_main_v24 (F := Ideal) x0 x1 (ix4 b h s t)
      = Ideal.div (prob (qkv (actOf x0) (wOf x1) 0) (qkv (actOf x0) (wOf x1) 1) b h s t)
          (rowSum (qkv (actOf x0) (wOf x1) 0) (qkv (actOf x0) (wOf x1) 1) b h s) := by
  rw [val_main_v24_apply, v20_read, v23_read]
  rfl

/-- Attention, each probability divided first. -/
theorem v25_read (b : Fin 2) (h : Fin 16) (s : Fin 2048) (d : Fin 64) :
    val_main_v25 (F := Ideal) x0 x1 (ix4 b h s d)
      = attnR (qkv (actOf x0) (wOf x1) 0) (qkv (actOf x0) (wOf x1) 1) (qkv (actOf x0) (wOf x1) 2) b h s d := by
  rw [val_main_v25_apply]
  show _ = ∑ t : Fin 2048, Ideal.div (prob (qkv (actOf x0) (wOf x1) 0) (qkv (actOf x0) (wOf x1) 1) b h s t)
      (rowSum (qkv (actOf x0) (wOf x1) 0) (qkv (actOf x0) (wOf x1) 1) b h s) * qkv (actOf x0) (wOf x1) 2 b h t d
  exact Finset.sum_congr rfl fun t _ => by rw [l_v25, r_v25, v24_read, v10_read]

/-- The heads merged: column j is coordinate j % 64 of head j / 64. -/
theorem v27_read (b : Fin 2) (s : Fin 2048) (j : Fin 1024) (p : j.val / 64 < 16) (p' : j.val % 64 < 64) :
    val_main_v27 (F := Ideal) x0 x1 (ix3 b s j)
      = attnR (qkv (actOf x0) (wOf x1) 0) (qkv (actOf x0) (wOf x1) 1) (qkv (actOf x0) (wOf x1) 2) b
          ⟨j.val / 64, p⟩ s ⟨j.val % 64, p'⟩ := by
  rw [val_main_v27_apply, rs_v27 b s j p p', val_main_v26_apply, tr_v26, v25_read]

end Stages

/-- The reference's result at (b, s, o) is the specification's output. -/
theorem ref_value (x0 : (⟨Cert.ReferenceIdeal.S2x2048x1024, .f32⟩ : BufTy).Contents (Elt Ideal))
    (x1 : (⟨Cert.ReferenceIdeal.S3072x1024, .f32⟩ : BufTy).Contents (Elt Ideal))
    (x2 : (⟨Cert.ReferenceIdeal.S1024x1024, .f32⟩ : BufTy).Contents (Elt Ideal))
    (b : Fin 2) (s : Fin 2048) (o : Fin 1024) :
    Cert.ReferenceIdeal.Read.val_main_v28 (F := Ideal) x0 x1 x2 (ix3 b s o)
      = Cert.Spec.refOut (fun b s k => x0 (ix3 b s k)) (fun r k => x1 (ix2 r k)) (fun o j => x2 (ix2 o j)) b s o := by
  rw [val_main_v28_apply]
  show _ = ∑ j : Fin 1024, attnR (qkv (actOf x0) (wOf x1) 0) (qkv (actOf x0) (wOf x1) 1) (qkv (actOf x0) (wOf x1) 2) b
      ⟨j.val / 64, by omega⟩ s ⟨j.val % 64, by omega⟩ * x2 (ix2 o j)
  exact Finset.sum_congr rfl fun j _ => by rw [l_v28, r_v28, v27_read]

end Cert.RefValue

end
-- ==== Proof.Algebra.lean ====
/-
  The algebra that joins the two ways of writing attention.

  With real queries and keys every score is a real number, so the row maximum is a real number, every unnormalised
  probability exp (score − maximum) is a positive real, and the row sum L is a positive real. Dividing by L is then
  multiplying by the real 1 / L, which is non-negative and finite, so it distributes over the sum of the value
  product: (Σ_t P_t · v_t) · L⁻¹ = Σ_t (P_t · L⁻¹) · v_t. The output's single sum over the merged feature column
  j = h · 64 + d is the double sum over heads h and coordinates d.
-/
import proofs.«145650_j50130858279276_2_alg».proof.Proof.Spec

noncomputable section

namespace Cert.Algebra

open Idealize.ShloMosaic Cert.Spec

/-- The word for −∞ denotes ⊥. -/
theorem negInf_eq : negInf = ⊥ := by
  simp [negInf, Ideal.ofBits, Ideal.ieee]

/-- The scale word denotes a real number. -/
theorem scale_coe : ∃ c : ℝ, scale = (c : EReal) := by
  unfold scale Ideal.ofBits Ideal.ieee
  simp only []
  rw [if_neg (by decide), if_neg (by decide)]
  exact ⟨_, rfl⟩

/-- A finite sum of (coerced) reals is the coerced real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of real-valued terms is real-valued. -/
theorem exists_coe_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl fun i _ => hg i⟩

/-- A product of real-valued factors is real-valued. -/
theorem exists_coe_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- Multiplication by a non-negative finite factor distributes over a finite sum. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

section Rows

variable (q k : Hd) (hq : ∀ b h s d, ∃ r : ℝ, q b h s d = (r : EReal)) (hk : ∀ b h s d, ∃ r : ℝ, k b h s d = (r : EReal))
include hq hk

/-- Every score is a real number. -/
theorem score_coe (b : Fin 2) (h : Fin 16) (s t : Fin 2048) : ∃ r : ℝ, score q k b h s t = (r : EReal) := by
  unfold score
  exact exists_coe_mul (exists_coe_sum _ _ fun d => exists_coe_mul (hq b h s d) (hk b h t d)) scale_coe

/-- The row maximum is a real number. -/
theorem rowMax_coe (b : Fin 2) (h : Fin 16) (s : Fin 2048) : ∃ m : ℝ, rowMax q k b h s = (m : EReal) := by
  have hlt : rowMax q k b h s < ⊤ := by
    unfold rowMax
    refine (Finset.fold_max_lt _).2 ⟨by rw [negInf_eq]; exact bot_lt_top, fun t _ => ?_⟩
    obtain ⟨r, hr⟩ := score_coe q k hq hk b h s t
    rw [hr]; exact EReal.coe_lt_top r
  have hgt : ⊥ < rowMax q k b h s := by
    unfold rowMax
    refine (Finset.lt_fold_max _).2 (Or.inr ⟨⟨0, by omega⟩, Finset.mem_univ _, ?_⟩)
    obtain ⟨r, hr⟩ := score_coe q k hq hk b h s ⟨0, by omega⟩
    rw [hr]; exact EReal.bot_lt_coe r
  exact ⟨(rowMax q k b h s).toReal, (EReal.coe_toReal hlt.ne hgt.ne').symm⟩

/-- Every unnormalised probability is a positive real. -/
theorem prob_pos (b : Fin 2) (h : Fin 16) (s t : Fin 2048) : ∃ p : ℝ, 0 < p ∧ prob q k b h s t = (p : EReal) := by
  obtain ⟨r, hr⟩ := score_coe q k hq hk b h s t
  obtain ⟨m, hm⟩ := rowMax_coe q k hq hk b h s
  refine ⟨Real.exp (r - m), Real.exp_pos _, ?_⟩
  unfold prob
  rw [hr, hm, ← EReal.coe_sub]
  rfl

/-- The row sum is a positive real. -/
theorem rowSum_pos (b : Fin 2) (h : Fin 16) (s : Fin 2048) : ∃ l : ℝ, 0 < l ∧ rowSum q k b h s = (l : EReal) := by
  choose p hp using fun t => prob_pos q k hq hk b h s t
  refine ⟨∑ t : Fin 2048, p t, Finset.sum_pos (fun t _ => (hp t).1) ⟨⟨0, by omega⟩, Finset.mem_univ _⟩, ?_⟩
  unfold rowSum
  rw [← coe_sum]
  exact Finset.sum_congr rfl fun t _ => (hp t).2

end Rows

/-- Dividing the value product by the row sum afterwards, or each probability first, is the same. -/
theorem attn_eq (q k v : Hd) (hq : ∀ b h s d, ∃ r : ℝ, q b h s d = (r : EReal))
    (hk : ∀ b h s d, ∃ r : ℝ, k b h s d = (r : EReal)) : attnR q k v = attn q k v := by
  funext b h s d
  obtain ⟨l, hl, hL⟩ := rowSum_pos q k hq hk b h s
  have hc0 : (0 : EReal) ≤ ((1 / l : ℝ) : EReal) := EReal.coe_nonneg.2 (one_div_pos.2 hl).le
  have hct : ((1 / l : ℝ) : EReal) ≠ ⊤ := EReal.coe_ne_top _
  show ∑ t : Fin 2048, Ideal.div (prob q k b h s t) (rowSum q k b h s) * v b h t d
      = Ideal.div (∑ t : Fin 2048, prob q k b h s t * v b h t d) (rowSum q k b h s)
  rw [hL, Ideal.div_coe hl.ne' (∑ t : Fin 2048, prob q k b h s t * v b h t d),
    sum_mul_of_nonneg_of_ne_top _ _ hc0 hct]
  refine Finset.sum_congr rfl fun t _ => ?_
  rw [Ideal.div_coe hl.ne']
  exact mul_right_comm _ _ _

/-- Every projection of real activations by real weights is real-valued. -/
theorem qkv_coe (X : Act) (W : Fin 3072 → Fin 1024 → EReal) (hX : ∀ b s k, ∃ r : ℝ, X b s k = (r : EReal))
    (hW : ∀ r k, ∃ x : ℝ, W r k = (x : EReal)) (j : Fin 3) (b : Fin 2) (h : Fin 16) (s : Fin 2048) (d : Fin 64) :
    ∃ r : ℝ, qkv X W j b h s d = (r : EReal) := by
  unfold qkv
  exact exists_coe_sum _ _ fun k => exists_coe_mul (hX b s k) (hW _ k)

/-- The merged feature columns are the pairs of a head and a coordinate. -/
def colEquiv : Fin 16 × Fin 64 ≃ Fin 1024 where
  toFun p := col p.1 p.2
  invFun j := (⟨j.val / 64, by omega⟩, ⟨j.val % 64, by omega⟩)
  left_inv p := Prod.ext (Fin.ext (by show (p.1.val * 64 + p.2.val) / 64 = p.1.val; omega))
    (Fin.ext (by show (p.1.val * 64 + p.2.val) % 64 = p.2.val; omega))
  right_inv j := Fin.ext (by show j.val / 64 * 64 + j.val % 64 = j.val; omega)

theorem col_div (h : Fin 16) (d : Fin 64) (p : (col h d).val / 64 < 16) : (⟨(col h d).val / 64, p⟩ : Fin 16) = h :=
  Fin.ext (by show (h.val * 64 + d.val) / 64 = h.val; omega)

theorem col_mod (h : Fin 16) (d : Fin 64) (p : (col h d).val % 64 < 64) : (⟨(col h d).val % 64, p⟩ : Fin 64) = d :=
  Fin.ext (by show (h.val * 64 + d.val) % 64 = d.val; omega)

/-- A sum over the merged feature column is the double sum over heads and coordinates. -/
theorem sum_col (F : Fin 1024 → EReal) : ∑ j : Fin 1024, F j = ∑ h : Fin 16, ∑ d : Fin 64, F (col h d) := by
  rw [← Equiv.sum_comp colEquiv F, Fintype.sum_prod_type]
  rfl

/-- The two ways of writing the output agree on real inputs. -/
theorem out_eq (X : Act) (W : Fin 3072 → Fin 1024 → EReal) (Wo : Fin 1024 → Fin 1024 → EReal)
    (hX : ∀ b s k, ∃ r : ℝ, X b s k = (r : EReal)) (hW : ∀ r k, ∃ x : ℝ, W r k = (x : EReal))
    (b : Fin 2) (s : Fin 2048) (o : Fin 1024) : refOut X W Wo b s o = kerOut X W Wo b s o := by
  unfold refOut kerOut
  rw [attn_eq (qkv X W 0) (qkv X W 1) (qkv X W 2) (qkv_coe X W hX hW 0) (qkv_coe X W hX hW 1), sum_col]
  refine Finset.sum_congr rfl fun h _ => Finset.sum_congr rfl fun d _ => ?_
  rw [col_div, col_mod]

end Cert.Algebra

end
-- ==== Proof.Finite.lean ====
/-
  Every entry of an input is a real number.

  The precondition says, for each argument x, that |x| < +∞ at every index: the comparison is reduced by "and" over
  all axes, and the three results are joined by "and". At the ideal values |x| is max x (−x); it lies below a bound
  that is at most ⊤, so x is neither ⊤ nor ⊥ (−⊥ = ⊤), hence a real number.
-/
import proofs.«145650_j50130858279276_2_alg».proof.Pre_finite_inputs
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Cert.Pre_finite_inputs

/-- The scalar shape has one index. -/
instance : Subsingleton S_.Idx := ⟨fun a b => funext fun d => d.elim0⟩

/-- A decision written as a one-bit word that is 1 holds. -/
theorem of_ofBool_eq_one {p : Prop} {inst : Decidable p} (h : BitVec.ofBool (@decide p inst) = 1#1) : p := by
  by_contra hp
  rw [decide_eq_false hp] at h
  exact absurd h (by decide)

/-- An extended real whose absolute value lies below some bound is a real number. -/
theorem real_of_abs_lt {x c : EReal} (h : max x (-x) < c) : ∃ r : ℝ, x = (r : EReal) := by
  have h' : max x (-x) < ⊤ := lt_of_lt_of_le h le_top
  have hx1 : x ≠ ⊤ := by
    rintro rfl
    exact lt_irrefl _ (lt_of_le_of_lt (le_max_left _ _) h')
  have hx2 : x ≠ ⊥ := by
    rintro rfl
    have : (⊤ : EReal) ≤ max ⊥ (-⊥) := by rw [EReal.neg_bot]; exact le_max_right _ _
    exact lt_irrefl _ (lt_of_le_of_lt this h')
  exact ⟨x.toReal, (EReal.coe_toReal hx1 hx2).symm⟩

/-- Where the comparison |x| < y gives 1, the entry of x is a real number. -/
theorem real_of_olt {s : Shape} (x y : FVec Ideal s .f32) (i : s.Idx)
    (h : cmpf .olt (Host.absf x) y i = 1#1) : ∃ r : ℝ, x i = (r : EReal) := by
  have h1 : max (x i) (-(x i)) < y i := of_ofBool_eq_one h
  exact real_of_abs_lt h1

/-- From the precondition, every entry of each of the three inputs is a real number. -/
theorem real_of_pre [Cert.Pre_finite_inputs.Facts] (a0 : FVec Ideal Cert.Pre_finite_inputs.S2x2048x1024 .f32)
    (a1 : FVec Ideal Cert.Pre_finite_inputs.S3072x1024 .f32) (a2 : FVec Ideal Cert.Pre_finite_inputs.S1024x1024 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  unfold Cert.Pre_finite_inputs.fn at h0
  dsimp only at h0
  have h012 : IntOp.andi _ _ = 1#1 := h0
  obtain ⟨h01, e2⟩ := IntOp.andi_eq_one.1 h012
  have h01' : IntOp.andi _ _ = 1#1 := h01
  obtain ⟨e0, e1⟩ := IntOp.andi_eq_one.1 h01'
  exact ⟨fun i => real_of_olt _ _ i (Host.reduce_andi_all _ _ _ _ _ e0 i),
    fun i => real_of_olt _ _ i (Host.reduce_andi_all _ _ _ _ _ e1 i),
    fun i => real_of_olt _ _ i (Host.reduce_andi_all _ _ _ _ _ e2 i)⟩

end Cert.Finite

end
-- ==== Proof.lean ====
/- The proof of `Cert.Claim`: a fused multi-head self-attention layer (projection to queries, keys and values; scaled
   dot-product attention with a max-subtracted softmax; output projection) computed by three kernel regions, against
   the same layer written with whole-array operations.

   * The three frames: the two kernel programs' by their generated frame certificates, the reference's by its
     generated run with the result dropped.
   * `preserves`: the idealization rewrote nothing, so there is nothing to state.
   * `algebraic`: on the extended reals both programs compute, at every (batch, position, output feature),
       Σ over heads h and head coordinates d of attention[b, h, s, d] · Wo[o, h·64 + d].
     The kernel forms the attention as (Σ_t P_t · v_t) / L — the value product divided by the softmax denominator
     afterwards (Proof/KernelValue.lean, over Proof/Region0, Region1, Region2 and Proof/Glue) — and the reference as
     Σ_t (P_t / L) · v_t (Proof/RefValue.lean). The inputs are finite (the precondition, Proof/Finite.lean), so every
     score is a real number, L is a positive real, and dividing by it distributes over the sum; the sum over the 1024
     merged feature columns is the double sum over 16 heads and 64 coordinates (Proof/Algebra.lean). -/
import proofs.«145650_j50130858279276_2_alg».proof.Defs
import proofs.«145650_j50130858279276_2_alg».proof.Proof.Gen.Kernel
import proofs.«145650_j50130858279276_2_alg».proof.Proof.Gen.Kernel.Skeleton
import proofs.«145650_j50130858279276_2_alg».proof.Proof.Gen.Kernel.Launch
import proofs.«145650_j50130858279276_2_alg».proof.Proof.Gen.Kernel.Points
import proofs.«145650_j50130858279276_2_alg».proof.Proof.Gen.Kernel.Frame
import proofs.«145650_j50130858279276_2_alg».proof.Proof.Gen.KernelIdeal
import proofs.«145650_j50130858279276_2_alg».proof.Proof.Gen.KernelIdeal.Skeleton
import proofs.«145650_j50130858279276_2_alg».proof.Proof.Gen.KernelIdeal.Launch
import proofs.«145650_j50130858279276_2_alg».proof.Proof.Gen.KernelIdeal.Points
import proofs.«145650_j50130858279276_2_alg».proof.Proof.Gen.KernelIdeal.Frame
import proofs.«145650_j50130858279276_2_alg».proof.Proof.Gen.ReferenceIdeal
import proofs.«145650_j50130858279276_2_alg».proof.Proof.Gen.ReferenceIdeal.Run
import proofs.«145650_j50130858279276_2_alg».proof.Proof.Gen.ReferenceIdeal.Read
import proofs.«145650_j50130858279276_2_alg».proof.Proof.Gen.Pre_finite_inputs
import proofs.«145650_j50130858279276_2_alg».proof.Proof.RunValue
import proofs.«145650_j50130858279276_2_alg».proof.Proof.KernelValue
import proofs.«145650_j50130858279276_2_alg».proof.Proof.RefValue
import proofs.«145650_j50130858279276_2_alg».proof.Proof.Algebra
import proofs.«145650_j50130858279276_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The two kernel programs' frames are generated whole. -/
theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the same result: the kernel's run leaves `kerOut` of the arguments at every entry,
    the reference's run `refOut` of the same arguments, and under finiteness the two agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W6 m ρ c (Proc.devRef .tc Cert.KernelIdeal.main_v12), Cert.KernelIdeal.RunValue.run_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v28_eq, (hagree c).1, (hagree c).2.1, (hagree c).2.2]
  obtain ⟨h0, h1, -⟩ := Cert.Finite.real_of_pre _ _ _ (hpre c)
  funext i
  obtain ⟨b, s, o, rfl⟩ : ∃ (b : Fin 2) (s : Fin 2048) (o : Fin 1024), i = ix3 b s o := ⟨i 0, i 1, i 2, eq_ix3 i⟩
  rw [Cert.RefValue.ref_value,
    Cert.Algebra.out_eq _ _ _ (fun b s k => h0 (ix3 b s k)) (fun r k => h1 (ix2 r k))]
  exact (Cert.KernelIdeal.KValue.kernel_value m ρ c b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
